-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x3x128 : Shape := ⟨4, ![8, 128, 3, 128]⟩
abbrev S256x128 : Shape := ⟨2, ![256, 128]⟩
abbrev S1x128 : Shape := ⟨2, ![1, 128]⟩
abbrev S_ : Shape := ⟨0, ![]⟩

class Facts : Prop where
  bcast_S_S8x128x3x128 : S_.BroadcastsInDim S8x128x3x128 (![] : Fin 0 → Fin S8x128x3x128.rank)
  reducesTo_S8x128x3x128_S_d0_1_2_3 : S8x128x3x128.ReducesTo [0, 1, 2, 3] S_
  h_S_ : 0 < S_.numel
  bcast_S_S256x128 : S_.BroadcastsInDim S256x128 (![] : Fin 0 → Fin S256x128.rank)
  reducesTo_S256x128_S_d0_1 : S256x128.ReducesTo [0, 1] S_
  bcast_S_S1x128 : S_.BroadcastsInDim S1x128 (![] : Fin 0 → Fin S1x128.rank)
  reducesTo_S1x128_S_d0_1 : S1x128.ReducesTo [0, 1] S_

variable [Facts]

def fn {F : FTy → Type} [FloatOps F] (main_arg0 : FVec F S8x128x3x128 .f32) (main_arg1 : FVec F S256x128 .f32) (main_arg2 : FVec F S1x128 .f32) : IVec S_ 1 :=
  let main_v0 : FVec F S8x128x3x128 .f32 := Host.absf main_arg0
  let main_cst : FVec F S_ .f32 := constant S_ .f32 0x7F800000#32
  let main_v1 : FVec F S8x128x3x128 .f32 := broadcastInDim S8x128x3x128 ![] bcast_S_S8x128x3x128 main_cst
  let main_v2 : IVec S8x128x3x128 1 := cmpf .olt main_v0 main_v1
  let main_c : IVec S_ 1 := constantI S_ 1 1#1
  let main_v3 : IVec S_ 1 := (fun x v => Host.reduce IntOp.andi x v reducesTo_S8x128x3x128_S_d0_1_2_3 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S1x128 .f32 := Host.absf main_arg2
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  main_v13
-- ==== Kernel.lean ====
abbrev S8x128x3x128 : Shape := ⟨4, ![8, 128, 3, 128]⟩
abbrev S256x128 : Shape := ⟨2, ![256, 128]⟩
abbrev S1x128 : Shape := ⟨2, ![1, 128]⟩
abbrev S128x128 : Shape := ⟨2, ![128, 128]⟩
abbrev S8x128x128x3x128 : Shape := ⟨5, ![8, 128, 128, 3, 128]⟩
abbrev S8x32x3x128 : Shape := ⟨4, ![8, 32, 3, 128]⟩
abbrev S8x16x3x128 : Shape := ⟨4, ![8, 16, 3, 128]⟩
abbrev S8x32x16x3x128 : Shape := ⟨5, ![8, 32, 16, 3, 128]⟩
abbrev S8x32x1x128 : Shape := ⟨4, ![8, 32, 1, 128]⟩
abbrev S8x32x128 : Shape := ⟨3, ![8, 32, 128]⟩
abbrev S8x16x1x128 : Shape := ⟨4, ![8, 16, 1, 128]⟩
abbrev S8x16x128 : Shape := ⟨3, ![8, 16, 128]⟩
abbrev S8x1x16x128 : Shape := ⟨4, ![8, 1, 16, 128]⟩
abbrev S8x32x16x128 : Shape := ⟨4, ![8, 32, 16, 128]⟩
abbrev S1x1x1x128 : Shape := ⟨4, ![1, 1, 1, 128]⟩
abbrev S8x32x16x1x128 : Shape := ⟨5, ![8, 32, 16, 1, 128]⟩

abbrev nBuf : Space → Nat
  | .hbm => 6
  | .vmem => 9
  | .smem => 0
  | _ => 0

abbrev bufTy : (tb : Table) → Fin (tcTables nBuf tb) → BufTy
  | .hbm, ⟨0, _⟩ => ⟨S8x128x3x128, .f32⟩
  | .hbm, ⟨1, _⟩ => ⟨S256x128, .f32⟩
  | .hbm, ⟨2, _⟩ => ⟨S1x128, .f32⟩
  | .hbm, ⟨3, _⟩ => ⟨S128x128, .f32⟩
  | .hbm, ⟨4, _⟩ => ⟨S128x128, .f32⟩
  | .hbm, ⟨5, _⟩ => ⟨S8x128x128x3x128, .f32⟩
  | .local _ .vmem, ⟨0, _⟩ => ⟨S8x32x3x128, .f32⟩
  | .local _ .vmem, ⟨1, _⟩ => ⟨S8x32x3x128, .f32⟩
  | .local _ .vmem, ⟨2, _⟩ => ⟨S8x16x3x128, .f32⟩
  | .local _ .vmem, ⟨3, _⟩ => ⟨S8x16x3x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S8x32x16x3x128, .f32⟩
  | .local _ .vmem, ⟨8, _⟩ => ⟨S8x32x16x3x128, .f32⟩
  | _, _ => ⟨S8x128x3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

abbrev stage0_0 : Fin 2 → Memref sig .tc .vmem S8x32x3x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x16x3x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S8x32x16x3x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  slices_S256x128_S128x128_0_0 : S256x128.Slices ![0, 0] S128x128
  slices_S256x128_S128x128_128_0 : S256x128.Slices ![128, 0] S128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  inb_S8x32x3x128_S8x32x1x128_0_0_0_0 : ∀ a, (![0, 0, 0, 0] : Fin 4 → Nat) a + S8x32x1x128.size a ≤ S8x32x3x128.size a
  h_S8x32x1x128 : 0 < S8x32x1x128.numel
  shapeCasts_S8x32x1x128_S8x32x128 : S8x32x1x128.ShapeCasts S8x32x128
  shapeCasts_S8x32x128_S256x128 : S8x32x128.ShapeCasts S256x128
  inb_S8x16x3x128_S8x16x1x128_0_0_0_0 : ∀ a, (![0, 0, 0, 0] : Fin 4 → Nat) a + S8x16x1x128.size a ≤ S8x16x3x128.size a
  h_S8x16x1x128 : 0 < S8x16x1x128.numel
  shapeCasts_S8x16x1x128_S8x16x128 : S8x16x1x128.ShapeCasts S8x16x128
  shapeCasts_S8x16x128_S128x128 : S8x16x128.ShapeCasts S128x128
  shapeCasts_S256x128_S8x32x128 : S256x128.ShapeCasts S8x32x128
  shapeCasts_S128x128_S8x16x128 : S128x128.ShapeCasts S8x16x128
  shapeCasts_S8x32x128_S8x32x1x128 : S8x32x128.ShapeCasts S8x32x1x128
  shapeCasts_S8x16x128_S8x1x16x128 : S8x16x128.ShapeCasts S8x1x16x128
  broadcasts_S8x32x1x128_S8x32x16x128 : S8x32x1x128.Broadcasts S8x32x16x128
  broadcasts_S8x1x16x128_S8x32x16x128 : S8x1x16x128.Broadcasts S8x32x16x128
  shapeCasts_S1x128_S1x1x1x128 : S1x128.ShapeCasts S1x1x1x128
  broadcasts_S1x1x1x128_S8x32x16x128 : S1x1x1x128.Broadcasts S8x32x16x128
  inb_S8x32x16x3x128_S8x32x16x1x128_0_0_0_0_0 : ∀ a, (![0, 0, 0, 0, 0] : Fin 5 → Nat) a + S8x32x16x1x128.size a ≤ S8x32x16x3x128.size a
  h_S8x32x16x1x128 : 0 < S8x32x16x1x128.numel
  shapeCasts_S8x32x16x1x128_S8x32x16x128 : S8x32x16x1x128.ShapeCasts S8x32x16x128
  shapeCasts_S8x32x16x128_S8x32x16x1x128 : S8x32x16x128.ShapeCasts S8x32x16x1x128
  inb_S8x32x3x128_S8x32x1x128_0_0_1_0 : ∀ a, (![0, 0, 1, 0] : Fin 4 → Nat) a + S8x32x1x128.size a ≤ S8x32x3x128.size a
  inb_S8x16x3x128_S8x16x1x128_0_0_1_0 : ∀ a, (![0, 0, 1, 0] : Fin 4 → Nat) a + S8x16x1x128.size a ≤ S8x16x3x128.size a
  inb_S8x32x16x3x128_S8x32x16x1x128_0_0_0_1_0 : ∀ a, (![0, 0, 0, 1, 0] : Fin 5 → Nat) a + S8x32x16x1x128.size a ≤ S8x32x16x3x128.size a
  inb_S8x32x3x128_S8x32x1x128_0_0_2_0 : ∀ a, (![0, 0, 2, 0] : Fin 4 → Nat) a + S8x32x1x128.size a ≤ S8x32x3x128.size a
  inb_S8x16x3x128_S8x16x1x128_0_0_2_0 : ∀ a, (![0, 0, 2, 0] : Fin 4 → Nat) a + S8x16x1x128.size a ≤ S8x16x3x128.size a
  inb_S8x32x16x3x128_S8x32x16x1x128_0_0_0_2_0 : ∀ a, (![0, 0, 0, 2, 0] : Fin 5 → Nat) a + S8x32x16x1x128.size a ≤ S8x32x16x3x128.size a
  dot_S256x128_S128x128_S256x128_1_0_0_1_n_n_wf : DotDims.WF S256x128 S128x128 S256x128 [1] [0] [0] [1] [] []
  dot_S128x128_S128x128_S128x128_1_0_0_1_n_n_wf : DotDims.WF S128x128 S128x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x32x3x128.size a ≤ S8x128x3x128.size a
  hwx0_0 : ∀ i : grid0.Coords, EltTy.bits .f32 = 32 ∨ (Rect.block (s := S8x128x3x128) S8x32x3x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x16x3x128.size a ≤ S8x128x3x128.size a
  hwx0_1 : ∀ i : grid0.Coords, EltTy.bits .f32 = 32 ∨ (Rect.block (s := S8x128x3x128) S8x16x3x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x32x16x3x128.size a ≤ S8x128x128x3x128.size a
  hwx0_5 : ∀ i : grid0.Coords, EltTy.bits .f32 = 32 ∨ (Rect.block (s := S8x128x128x3x128) S8x32x16x3x128.size (cc0_transform_5 i) (hinb0_5 i)).WholeWords (EltTy.packing .f32)

variable [Facts₀]

def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf

abbrev win0_0 : Pipeline.Window sig grid0 :=
  Pipeline.Window.ofSpec (Memref.whole main_arg0) S8x32x3x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8x16x3x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S8x32x16x3x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x128x3x128 : Shape := ⟨4, ![8, 128, 3, 128]⟩
abbrev S256x128 : Shape := ⟨2, ![256, 128]⟩
abbrev S1x128 : Shape := ⟨2, ![1, 128]⟩
abbrev S128x128 : Shape := ⟨2, ![128, 128]⟩
abbrev S8x128x1x3x128 : Shape := ⟨5, ![8, 128, 1, 3, 128]⟩
abbrev S8x1x128x3x128 : Shape := ⟨5, ![8, 1, 128, 3, 128]⟩
abbrev S8x128x128x3x128 : Shape := ⟨5, ![8, 128, 128, 3, 128]⟩
abbrev S128 : Shape := ⟨1, ![128]⟩
abbrev S1x1x1x1x128 : Shape := ⟨5, ![1, 1, 1, 1, 128]⟩

abbrev nBuf : Space → Nat
  | .hbm => 16
  | .vmem => 0
  | .smem => 0
  | _ => 0

abbrev bufTy : (tb : Table) → Fin (tcTables nBuf tb) → BufTy
  | .hbm, ⟨0, _⟩ => ⟨S8x128x3x128, .f32⟩
  | .hbm, ⟨1, _⟩ => ⟨S256x128, .f32⟩
  | .hbm, ⟨2, _⟩ => ⟨S1x128, .f32⟩
  | .hbm, ⟨3, _⟩ => ⟨S128x128, .f32⟩
  | .hbm, ⟨4, _⟩ => ⟨S128x128, .f32⟩
  | .hbm, ⟨5, _⟩ => ⟨S8x128x3x128, .f32⟩
  | .hbm, ⟨6, _⟩ => ⟨S8x128x3x128, .f32⟩
  | .hbm, ⟨7, _⟩ => ⟨S8x128x1x3x128, .f32⟩
  | .hbm, ⟨8, _⟩ => ⟨S8x1x128x3x128, .f32⟩
  | .hbm, ⟨9, _⟩ => ⟨S8x128x128x3x128, .f32⟩
  | .hbm, ⟨10, _⟩ => ⟨S8x128x128x3x128, .f32⟩
  | .hbm, ⟨11, _⟩ => ⟨S8x128x128x3x128, .f32⟩
  | .hbm, ⟨12, _⟩ => ⟨S128, .f32⟩
  | .hbm, ⟨13, _⟩ => ⟨S1x1x1x1x128, .f32⟩
  | .hbm, ⟨14, _⟩ => ⟨S8x128x128x3x128, .f32⟩
  | .hbm, ⟨15, _⟩ => ⟨S8x128x128x3x128, .f32⟩
  | _, _ => ⟨S8x128x3x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]

class Facts₀ : Prop where
  slices_S256x128_S128x128_0_0 : S256x128.Slices ![0, 0] S128x128
  slices_S256x128_S128x128_128_0 : S256x128.Slices ![128, 0] S128x128
  bcast_S8x128x3x128_S8x128x1x3x128_0_1_3_4 : S8x128x3x128.BroadcastsInDim S8x128x1x3x128 (![0, 1, 3, 4] : Fin 4 → Fin S8x128x1x3x128.rank)
  bcast_S8x128x3x128_S8x1x128x3x128_0_2_3_4 : S8x128x3x128.BroadcastsInDim S8x1x128x3x128 (![0, 2, 3, 4] : Fin 4 → Fin S8x1x128x3x128.rank)
  bcast_S8x128x1x3x128_S8x128x128x3x128_0_1_2_3_4 : S8x128x1x3x128.BroadcastsInDim S8x128x128x3x128 (![0, 1, 2, 3, 4] : Fin 5 → Fin S8x128x128x3x128.rank)
  bcast_S8x1x128x3x128_S8x128x128x3x128_0_1_2_3_4 : S8x1x128x3x128.BroadcastsInDim S8x128x128x3x128 (![0, 1, 2, 3, 4] : Fin 5 → Fin S8x128x128x3x128.rank)
  shapeCasts_S1x128_S128 : S1x128.ShapeCasts S128
  bcast_S128_S1x1x1x1x128_4 : S128.BroadcastsInDim S1x1x1x1x128 (![4] : Fin 1 → Fin S1x1x1x1x128.rank)
  bcast_S1x1x1x1x128_S8x128x128x3x128_0_1_2_3_4 : S1x1x1x1x128.BroadcastsInDim S8x128x128x3x128 (![0, 1, 2, 3, 4] : Fin 5 → Fin S8x128x128x3x128.rank)
  dot_S8x128x3x128_S128x128_S8x128x3x128_3_0_012_1_n_n_wf : DotDims.WF S8x128x3x128 S128x128 S8x128x3x128 [3] [0] [0, 1, 2] [1] [] []

variable [Facts₀]

def dot_S8x128x3x128_S128x128_S8x128x3x128_3_0_012_1_n_n : DotDims S8x128x3x128 S128x128 S8x128x3x128 where
  lhsContracting := [3]
  rhsContracting := [0]
  lhsNonContracting := [0, 1, 2]
  rhsNonContracting := [1]
  lhsBatch := []
  rhsBatch := []
  wf := dot_S8x128x3x128_S128x128_S8x128x3x128_3_0_012_1_n_n_wf

class Facts : Prop extends Facts₀ where

variable [Facts]
-- ==== Proof.BitsBody.lean ====
/-
  One grid point of the kernel, as a Hoare triple over its six staging buffers.

  At a point the body reads five blocks: a block `xi` of 32 rows of the node features (all 8 batches, all 3
  channels), a block `xj` of 16 rows of the same array, the two 128×128 weight halves `w1`, `w2` and the bias row
  `b`. For each channel c it forms the 256×128 product (xi[:, :, c, :] flattened) · w1, the 128×128 product
  (xj[:, :, c, :] flattened) · w2, adds the first along the j axis to the second along the i axis, adds the bias, and
  stores the result into channel c of the 8×32×16×3×128 output block. The three stores have disjoint rectangles
  (one per channel) that together tile the output block, so what the block holds afterwards does not depend on what
  it held before: it is the overlay `blockOut` of the three channel payloads. (Before each store the body also loads
  the rectangle it is about to overwrite; the loaded value is not used.)
-/
import proofs.«179737_j9955734192542_2_alg».proof.Proof.Gen.Kernel.Launch
import proofs.«179737_j9955734192542_2_alg».proof.Proof.Gen.Kernel.Skeleton
import proofs.«179737_j9955734192542_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes -/

/-- A whole weight half. -/
abbrev rW : Rect S128x128 := Rect.unit (s := S128x128) ![0, 0] S128x128.size inb_S128x128_S128x128_0_0
/-- The whole bias row. -/
abbrev rB : Rect S1x128 := Rect.unit (s := S1x128) ![0, 0] S1x128.size inb_S1x128_S1x128_0_0
/-- Channel 0, 1, 2 of the i block. -/
abbrev rI0 : Rect S8x32x3x128 := Rect.unit (s := S8x32x3x128) ![0, 0, 0, 0] S8x32x1x128.size inb_S8x32x3x128_S8x32x1x128_0_0_0_0
abbrev rI1 : Rect S8x32x3x128 := Rect.unit (s := S8x32x3x128) ![0, 0, 1, 0] S8x32x1x128.size inb_S8x32x3x128_S8x32x1x128_0_0_1_0
abbrev rI2 : Rect S8x32x3x128 := Rect.unit (s := S8x32x3x128) ![0, 0, 2, 0] S8x32x1x128.size inb_S8x32x3x128_S8x32x1x128_0_0_2_0
/-- Channel 0, 1, 2 of the j block. -/
abbrev rJ0 : Rect S8x16x3x128 := Rect.unit (s := S8x16x3x128) ![0, 0, 0, 0] S8x16x1x128.size inb_S8x16x3x128_S8x16x1x128_0_0_0_0
abbrev rJ1 : Rect S8x16x3x128 := Rect.unit (s := S8x16x3x128) ![0, 0, 1, 0] S8x16x1x128.size inb_S8x16x3x128_S8x16x1x128_0_0_1_0
abbrev rJ2 : Rect S8x16x3x128 := Rect.unit (s := S8x16x3x128) ![0, 0, 2, 0] S8x16x1x128.size inb_S8x16x3x128_S8x16x1x128_0_0_2_0
/-- Channel 0, 1, 2 of the output block. -/
abbrev rO0 : Rect S8x32x16x3x128 := Rect.unit (s := S8x32x16x3x128) ![0, 0, 0, 0, 0] S8x32x16x1x128.size inb_S8x32x16x3x128_S8x32x16x1x128_0_0_0_0_0
abbrev rO1 : Rect S8x32x16x3x128 := Rect.unit (s := S8x32x16x3x128) ![0, 0, 0, 1, 0] S8x32x16x1x128.size inb_S8x32x16x3x128_S8x32x16x1x128_0_0_0_1_0
abbrev rO2 : Rect S8x32x16x3x128 := Rect.unit (s := S8x32x16x3x128) ![0, 0, 0, 2, 0] S8x32x16x1x128.size inb_S8x32x16x3x128_S8x32x16x1x128_0_0_0_2_0

/-! ## What each channel's store writes, from the five blocks -/

/-- Channel 0 of the output block: xi[:, :, 0, :] · w1 (along i) + xj[:, :, 0, :] · w2 (along j) + b. -/
def chan0 (xi : Vec F S8x32x3x128 .f32) (xj : Vec F S8x16x3x128 .f32) (w1 w2 : Vec F S128x128 .f32) (b : Vec F S1x128 .f32) : FVec F S8x32x16x1x128 .f32 :=
  k0_pay4 (View.ld w1 rW) (View.ld w2 rW) (View.ld b rB) (View.ld xi rI0) (View.ld xj rJ0)
/-- Channel 1 likewise. -/
def chan1 (xi : Vec F S8x32x3x128 .f32) (xj : Vec F S8x16x3x128 .f32) (w1 w2 : Vec F S128x128 .f32) (b : Vec F S1x128 .f32) : FVec F S8x32x16x1x128 .f32 :=
  k0_pay6 (k0_pay2 (View.ld w1 rW)) (k0_pay3 (View.ld w2 rW)) (View.ld b rB) (k0_pay5 (View.ld xi rI1)) (View.ld xj rJ1)
/-- Channel 2 likewise. -/
def chan2 (xi : Vec F S8x32x3x128 .f32) (xj : Vec F S8x16x3x128 .f32) (w1 w2 : Vec F S128x128 .f32) (b : Vec F S1x128 .f32) : FVec F S8x32x16x1x128 .f32 :=
  k0_pay1 (View.ld b rB) (k0_pay7 (k0_pay2 (View.ld w1 rW)) (k0_pay3 (View.ld w2 rW)) (View.ld xi rI2) (View.ld xj rJ2))

/-- The output block after the body: the three channel payloads laid over one another (last store first). -/
def blockOut (xi : Vec F S8x32x3x128 .f32) (xj : Vec F S8x16x3x128 .f32) (w1 w2 : Vec F S128x128 .f32) (b : Vec F S1x128 .f32) : Vec F S8x32x16x3x128 .f32 :=
  View.canon [⟨rO2, chan2 xi xj w1 w2 b⟩, ⟨rO1, chan1 xi xj w1 w2 b⟩, ⟨rO0, chan0 xi xj w1 w2 b⟩]

/-- The three channel rectangles tile the output block, so every index of it lies in one of them. -/
theorem chans_cover (p2 p1 p0 : Vec F S8x32x16x1x128 .f32) (y : S8x32x16x3x128.Idx) :
    ∃ pc ∈ ([⟨rO2, p2⟩, ⟨rO1, p1⟩, ⟨rO0, p0⟩] : List (View.Piece (Elt F) S8x32x16x3x128 .f32)), y ∈ pc.1.set :=
  View.cover_of_tiled ([⟨rO2, p2⟩, ⟨rO1, p1⟩, ⟨rO0, p0⟩] : List (View.Piece (Elt F) S8x32x16x3x128 .f32)) S8x32x16x1x128.size (by rfl) y

/-! ## The body's triple -/

set_option maxHeartbeats 4000000 in
/-- The body on whole staging memrefs, the five inputs' at read contents `xi xj w1 w2 b` and the output's at anything,
    runs to the continuation holding the inputs as they were and the output at `blockOut` of them. -/
theorem sound_kernel (c : Dev nD) (E : Set ℕ) (i : grid0.Coords)
    (arg2 : Memref sig .tc .vmem S8x32x3x128 .f32) (harg2 : arg2.IsWhole) (arg3 : Memref sig .tc .vmem S8x16x3x128 .f32) (harg3 : arg3.IsWhole)
    (arg4 : Memref sig .tc .vmem S128x128 .f32) (harg4 : arg4.IsWhole) (arg5 : Memref sig .tc .vmem S128x128 .f32) (harg5 : arg5.IsWhole)
    (arg6 : Memref sig .tc .vmem S1x128 .f32) (harg6 : arg6.IsWhole) (arg7 : Memref sig .tc .vmem S8x32x16x3x128 .f32) (harg7 : arg7.IsWhole)
    (xi : Vec F S8x32x3x128 .f32) (xj : Vec F S8x16x3x128 .f32) (w1 w2 : Vec F S128x128 .f32) (b : Vec F S1x128 .f32) (K : PUnit → sProp 𝕄) :
    iprop(owns (c : Thread nD τ) arg2 fullShare xi ∗ owns (c : Thread nD τ) arg3 fullShare xj ∗ owns (c : Thread nD τ) arg4 fullShare w1
        ∗ owns (c : Thread nD τ) arg5 fullShare w2 ∗ owns (c : Thread nD τ) arg6 fullShare b ∗ (∃ d, owns (c : Thread nD τ) arg7 fullShare d)
        ∗ (iprop(owns (c : Thread nD τ) arg2 fullShare xi ∗ owns (c : Thread nD τ) arg3 fullShare xj ∗ owns (c : Thread nD τ) arg4 fullShare w1
            ∗ owns (c : Thread nD τ) arg5 fullShare w2 ∗ owns (c : Thread nD τ) arg6 fullShare b
            ∗ owns (c : Thread nD τ) arg7 fullShare (blockOut xi xj w1 w2 b)) -∗ K ⟨⟩))
      ⊢ wp frame (wpE (defs₀ (F := F)) Variants.none c none) E (cc0__kernel i arg2 harg2 arg3 harg3 arg4 harg4 arg5 harg5 arg6 harg6 arg7 harg7) K := by
  simp only [cc0__kernel_eq_skeleton]; unfold cc0__kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf2 hf3 hf4 hf5 hf6
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (chans_cover _ _ _)

end Cert.Kernel.Hand

end
-- ==== Proof.BitsRun.lean ====
/-
  The whole run of the program, from the body's triple.

  @main slices the 256×128 weight into its upper and lower halves (two host operations), then enters one pipelined
  region over a 4×8 grid. At grid point (i, j) the pipeline hands the body: rows 32i … 32i+31 of the node features
  (window 0), rows 16j … 16j+15 of THE SAME array (window 1), the two weight halves and the bias (windows 2–4, fetched
  once), and writes back block (i, j) of the 8×128×128×3×128 result (window 5) after every point.

  Two input windows read one array. Neither writes it, so the array's full share is cut in two halves, one per window;
  every other input is held whole. With that the proof data is the plainest possible: every input buffer holds its
  window's block of the array as the region found it, the output buffer holds `blockOut` of those blocks, nothing is
  carried from point to point. The run then says: every array the pipeline stages ends at what the library computes
  from that data (`Dat.arrAt`), and every other unscoped buffer is as the region found it.
-/
import proofs.«179737_j9955734192542_2_alg».proof.Proof.BitsBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the two slices of the weight. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the two slices, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The slices write the two halves only: each argument array is found as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- After the body at point `t`: each input buffer at its block, the output buffer at `blockOut` of the five blocks.
    The invariant is the scoped rest (this kernel has no scratch: it is empty); the array two windows read is held
    half and half, the others whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => blockOut (iblk m c 0 t) (iblk m c 1 t) (iblk m c 2 t) (iblk m c 3 t) (iblk m c 4 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = blockOut (iblk m c 0 t) (iblk m c 1 t) (iblk m c 2 t) (iblk m c 3 t) (iblk m c 4 t) := by dsimp only [dats]

/-- An input's current buffer holds its window's block at every point, fetched there or not: where it is not fetched the
    block index has not moved and the body left the block in place. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## One array, two readers -/

/-- The five distinct buffers behind the six windows, each whole at its entry contents, are the pipeline's arrays at
    entry: the node features' full share splits into a left half for window 0 and a right half for window 1. -/
theorem arrays_of_buffers (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_eq_bigSepL_of_eq [main_arg0, main_v0, main_v1, main_arg2, main_v2] (by decide) (by decide), bigSep_W0]
  simp only [bigSepL_cons, bigSepL_nil]
  have hw : ∀ (b : Ref sig .tc) (q : PosShare TreeShare) (f : Buf (Elt F) ((c : Thread nD τ).loc b)),
      (View.loc (c : Thread nD τ) (View.whole b) ↦[(View.whole b).set]{q} f : sProp 𝕄) = ((c : Thread nD τ).loc b ↦{q} f) := fun b q f => by
    rw [show (View.whole b).set = Finset.univ from (Memref.isWhole_whole b).set_eq_univ]
  rw [show (dats m 0 c).share 0 = fullShare.left from rfl, show (dats m 0 c).share 1 = fullShare.right from rfl,
    show (dats m 0 c).share 2 = fullShare from rfl, show (dats m 0 c).share 3 = fullShare from rfl,
    show (dats m 0 c).share 4 = fullShare from rfl, show (dats m 0 c).share 5 = fullShare from rfl,
    hw, hw, hw, hw, hw, hw]
  rw [show (dats m 0 c).arrAt 0 0 = V m c main_arg0 from rfl, show (dats m 0 c).arrAt 1 0 = V m c main_arg0 from rfl,
    show (dats m 0 c).arrAt 2 0 = V m c main_v0 from rfl, show (dats m 0 c).arrAt 3 0 = V m c main_v1 from rfl,
    show (dats m 0 c).arrAt 4 0 = V m c main_arg2 from rfl, show (dats m 0 c).arrAt 5 0 = V m c main_v2 from rfl]
  exact (Idealize.SL.BI.sep_mono (pointsTo_share (PosShare.mem_left_op_right fullShare)).1
    (Idealize.SL.BI.sep_mono (Idealize.SL.BI.Entails.refl _) (Idealize.SL.BI.sep_mono (Idealize.SL.BI.Entails.refl _) (Idealize.SL.BI.sep_mono (Idealize.SL.BI.Entails.refl _) Idealize.SL.BI.sep_emp_elim)))).trans
      Idealize.SL.BI.sep_assoc

end Cert.Kernel.Hand

end
-- ==== Proof.BitsLaunch.lean ====
/-
  The launch: from one grid point to the whole program.

  The pipeline library's launch theorem for a kernel whose input windows may read one array asks, beside the body
  obligation, how the buffers behind the arrays make the pipeline's arrays at entry (the two half shares of the node
  features), and how the buffers no window stages — here the unsliced weight — travel around the region: untouched.
  It concludes that each staged array ends at what the library computes from the proof data and every bypassing
  buffer is as the region found it. Reading that conclusion at the three argument arrays gives the frame: an input
  window never writes its array, and the weight bypasses the region.
-/
import proofs.«179737_j9955734192542_2_alg».proof.Proof.BitsRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates; each array a window stages ends
    at the proof data's `arrAt … N`, every other unscoped buffer as the region found it. -/
theorem run_main : θ_run defs (onTc (τ := τ) (main (F := F))) ⟨m, fun _ => 0, ρ⟩ (Pipeline.FramePost cfgs (dats m) 0 (V m)) := by
  classical
  exact Pipeline.θ_run_region_noSem_shared cfgs (dats m) () cellOf_inj (0 : Fin 1) winFacts₀0 emb₁ defs₀ Variants.none m ρ main
    (fun c => (body_obligation m c).loose) block_pos0 arr_whole0 stage_whole0 (fun _ _ => rfl)
    (initOf (Pipeline.cells cfgs cellOf_inj) (Pipeline.launchToks cfgs cellOf_inj)) .rfl
    (V m) (hmain m Variants.none) (arrays_of_buffers m)
    (fun _ => iprop(emp)) (fun _ => iprop(emp))
    (fun c => Pipeline.unscopedRest (Ix := Unit) (Name := ℕ) (U := UR sig nD τ) (Lvl := ℕ) spec0 c (V m c))
    (fun c => by
      iintro H; isplitr
      · iempintro
      · iexact H)
    (fun c => (show iprop((emp : sProp 𝕄) ∗ Pipeline.scopedRest (Ix := Unit) (Name := ℕ) (U := UR sig nD τ) (Lvl := ℕ) (Val := Elt F) spec0 c)
        ⊢ Pipeline.scopedRest (Ix := Unit) (Name := ℕ) (U := UR sig nD τ) (Lvl := ℕ) (Val := Elt F) spec0 c from by
      iintro ⟨-, H⟩; iexact H))
    (fun c => (show Pipeline.scopedRest (Ix := Unit) (Name := ℕ) (U := UR sig nD τ) (Lvl := ℕ) (Val := Elt F) spec0 c
        ⊢ iprop((emp : sProp 𝕄) ∗ Pipeline.scopedRest (Ix := Unit) (Name := ℕ) (U := UR sig nD τ) (Lvl := ℕ) (Val := Elt F) spec0 c) from by
      iintro H; isplitr
      · iempintro
      · iexact H))
    (fun c s => ∀ b ∈ Pipeline.restRefs sig spec0, s.mem ((c.tc : Thread nD τ).loc b) = V m c b)
    (fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (fun s h c => h c)

/-- The frame: the three argument arrays end as they started. The node features and the bias are arrays of input windows,
    which the pipeline never writes; the weight is staged by no window. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans ((A_eq m c 0).trans (V_main_arg0 m c))),
     ((h c).2 main_arg1 (Pipeline.mem_restRefs_of main_arg1 rfl (by decide))).trans (V_main_arg1 m c),
     ((h c).1 4).trans (((dats m 0 c).arrAt_in 4 rfl _).trans ((A_eq m c 4).trans (V_main_arg2 m c)))⟩) (run_main m ρ)

end Cert.Kernel.Hand

end
-- ==== Proof.IdealBody.lean ====
/-
  One grid point of the kernel, as a Hoare triple over its six staging buffers.

  At a point the body reads five blocks: a block `xi` of 32 rows of the node features (all 8 batches, all 3
  channels), a block `xj` of 16 rows of the same array, the two 128×128 weight halves `w1`, `w2` and the bias row
  `b`. For each channel c it forms the 256×128 product (xi[:, :, c, :] flattened) · w1, the 128×128 product
  (xj[:, :, c, :] flattened) · w2, adds the first along the j axis to the second along the i axis, adds the bias, and
  stores the result into channel c of the 8×32×16×3×128 output block. The three stores have disjoint rectangles
  (one per channel) that together tile the output block, so what the block holds afterwards does not depend on what
  it held before: it is the overlay `blockOut` of the three channel payloads. (Before each store the body also loads
  the rectangle it is about to overwrite; the loaded value is not used.)
-/
import proofs.«179737_j9955734192542_2_alg».proof.Proof.Gen.KernelIdeal.Launch
import proofs.«179737_j9955734192542_2_alg».proof.Proof.Gen.KernelIdeal.Skeleton
import proofs.«179737_j9955734192542_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes -/

/-- A whole weight half. -/
abbrev rW : Rect S128x128 := Rect.unit (s := S128x128) ![0, 0] S128x128.size inb_S128x128_S128x128_0_0
/-- The whole bias row. -/
abbrev rB : Rect S1x128 := Rect.unit (s := S1x128) ![0, 0] S1x128.size inb_S1x128_S1x128_0_0
/-- Channel 0, 1, 2 of the i block. -/
abbrev rI0 : Rect S8x32x3x128 := Rect.unit (s := S8x32x3x128) ![0, 0, 0, 0] S8x32x1x128.size inb_S8x32x3x128_S8x32x1x128_0_0_0_0
abbrev rI1 : Rect S8x32x3x128 := Rect.unit (s := S8x32x3x128) ![0, 0, 1, 0] S8x32x1x128.size inb_S8x32x3x128_S8x32x1x128_0_0_1_0
abbrev rI2 : Rect S8x32x3x128 := Rect.unit (s := S8x32x3x128) ![0, 0, 2, 0] S8x32x1x128.size inb_S8x32x3x128_S8x32x1x128_0_0_2_0
/-- Channel 0, 1, 2 of the j block. -/
abbrev rJ0 : Rect S8x16x3x128 := Rect.unit (s := S8x16x3x128) ![0, 0, 0, 0] S8x16x1x128.size inb_S8x16x3x128_S8x16x1x128_0_0_0_0
abbrev rJ1 : Rect S8x16x3x128 := Rect.unit (s := S8x16x3x128) ![0, 0, 1, 0] S8x16x1x128.size inb_S8x16x3x128_S8x16x1x128_0_0_1_0
abbrev rJ2 : Rect S8x16x3x128 := Rect.unit (s := S8x16x3x128) ![0, 0, 2, 0] S8x16x1x128.size inb_S8x16x3x128_S8x16x1x128_0_0_2_0
/-- Channel 0, 1, 2 of the output block. -/
abbrev rO0 : Rect S8x32x16x3x128 := Rect.unit (s := S8x32x16x3x128) ![0, 0, 0, 0, 0] S8x32x16x1x128.size inb_S8x32x16x3x128_S8x32x16x1x128_0_0_0_0_0
abbrev rO1 : Rect S8x32x16x3x128 := Rect.unit (s := S8x32x16x3x128) ![0, 0, 0, 1, 0] S8x32x16x1x128.size inb_S8x32x16x3x128_S8x32x16x1x128_0_0_0_1_0
abbrev rO2 : Rect S8x32x16x3x128 := Rect.unit (s := S8x32x16x3x128) ![0, 0, 0, 2, 0] S8x32x16x1x128.size inb_S8x32x16x3x128_S8x32x16x1x128_0_0_0_2_0

/-! ## What each channel's store writes, from the five blocks -/

/-- Channel 0 of the output block: xi[:, :, 0, :] · w1 (along i) + xj[:, :, 0, :] · w2 (along j) + b. -/
def chan0 (xi : Vec F S8x32x3x128 .f32) (xj : Vec F S8x16x3x128 .f32) (w1 w2 : Vec F S128x128 .f32) (b : Vec F S1x128 .f32) : FVec F S8x32x16x1x128 .f32 :=
  k0_pay4 (View.ld w1 rW) (View.ld w2 rW) (View.ld b rB) (View.ld xi rI0) (View.ld xj rJ0)
/-- Channel 1 likewise. -/
def chan1 (xi : Vec F S8x32x3x128 .f32) (xj : Vec F S8x16x3x128 .f32) (w1 w2 : Vec F S128x128 .f32) (b : Vec F S1x128 .f32) : FVec F S8x32x16x1x128 .f32 :=
  k0_pay6 (k0_pay2 (View.ld w1 rW)) (k0_pay3 (View.ld w2 rW)) (View.ld b rB) (k0_pay5 (View.ld xi rI1)) (View.ld xj rJ1)
/-- Channel 2 likewise. -/
def chan2 (xi : Vec F S8x32x3x128 .f32) (xj : Vec F S8x16x3x128 .f32) (w1 w2 : Vec F S128x128 .f32) (b : Vec F S1x128 .f32) : FVec F S8x32x16x1x128 .f32 :=
  k0_pay1 (View.ld b rB) (k0_pay7 (k0_pay2 (View.ld w1 rW)) (k0_pay3 (View.ld w2 rW)) (View.ld xi rI2) (View.ld xj rJ2))

/-- The output block after the body: the three channel payloads laid over one another (last store first). -/
def blockOut (xi : Vec F S8x32x3x128 .f32) (xj : Vec F S8x16x3x128 .f32) (w1 w2 : Vec F S128x128 .f32) (b : Vec F S1x128 .f32) : Vec F S8x32x16x3x128 .f32 :=
  View.canon [⟨rO2, chan2 xi xj w1 w2 b⟩, ⟨rO1, chan1 xi xj w1 w2 b⟩, ⟨rO0, chan0 xi xj w1 w2 b⟩]

/-- The three channel rectangles tile the output block, so every index of it lies in one of them. -/
theorem chans_cover (p2 p1 p0 : Vec F S8x32x16x1x128 .f32) (y : S8x32x16x3x128.Idx) :
    ∃ pc ∈ ([⟨rO2, p2⟩, ⟨rO1, p1⟩, ⟨rO0, p0⟩] : List (View.Piece (Elt F) S8x32x16x3x128 .f32)), y ∈ pc.1.set :=
  View.cover_of_tiled ([⟨rO2, p2⟩, ⟨rO1, p1⟩, ⟨rO0, p0⟩] : List (View.Piece (Elt F) S8x32x16x3x128 .f32)) S8x32x16x1x128.size (by rfl) y

/-! ## The body's triple -/

set_option maxHeartbeats 4000000 in
/-- The body on whole staging memrefs, the five inputs' at read contents `xi xj w1 w2 b` and the output's at anything,
    runs to the continuation holding the inputs as they were and the output at `blockOut` of them. -/
theorem sound_kernel (c : Dev nD) (E : Set ℕ) (i : grid0.Coords)
    (arg2 : Memref sig .tc .vmem S8x32x3x128 .f32) (harg2 : arg2.IsWhole) (arg3 : Memref sig .tc .vmem S8x16x3x128 .f32) (harg3 : arg3.IsWhole)
    (arg4 : Memref sig .tc .vmem S128x128 .f32) (harg4 : arg4.IsWhole) (arg5 : Memref sig .tc .vmem S128x128 .f32) (harg5 : arg5.IsWhole)
    (arg6 : Memref sig .tc .vmem S1x128 .f32) (harg6 : arg6.IsWhole) (arg7 : Memref sig .tc .vmem S8x32x16x3x128 .f32) (harg7 : arg7.IsWhole)
    (xi : Vec F S8x32x3x128 .f32) (xj : Vec F S8x16x3x128 .f32) (w1 w2 : Vec F S128x128 .f32) (b : Vec F S1x128 .f32) (K : PUnit → sProp 𝕄) :
    iprop(owns (c : Thread nD τ) arg2 fullShare xi ∗ owns (c : Thread nD τ) arg3 fullShare xj ∗ owns (c : Thread nD τ) arg4 fullShare w1
        ∗ owns (c : Thread nD τ) arg5 fullShare w2 ∗ owns (c : Thread nD τ) arg6 fullShare b ∗ (∃ d, owns (c : Thread nD τ) arg7 fullShare d)
        ∗ (iprop(owns (c : Thread nD τ) arg2 fullShare xi ∗ owns (c : Thread nD τ) arg3 fullShare xj ∗ owns (c : Thread nD τ) arg4 fullShare w1
            ∗ owns (c : Thread nD τ) arg5 fullShare w2 ∗ owns (c : Thread nD τ) arg6 fullShare b
            ∗ owns (c : Thread nD τ) arg7 fullShare (blockOut xi xj w1 w2 b)) -∗ K ⟨⟩))
      ⊢ wp frame (wpE (defs₀ (F := F)) Variants.none c none) E (cc0__kernel i arg2 harg2 arg3 harg3 arg4 harg4 arg5 harg5 arg6 harg6 arg7 harg7) K := by
  simp only [cc0__kernel_eq_skeleton]; unfold cc0__kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf2 hf3 hf4 hf5 hf6
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (chans_cover _ _ _)

end Cert.KernelIdeal.Hand

end
-- ==== Proof.IdealRun.lean ====
/-
  The whole run of the program, from the body's triple.

  @main slices the 256×128 weight into its upper and lower halves (two host operations), then enters one pipelined
  region over a 4×8 grid. At grid point (i, j) the pipeline hands the body: rows 32i … 32i+31 of the node features
  (window 0), rows 16j … 16j+15 of THE SAME array (window 1), the two weight halves and the bias (windows 2–4, fetched
  once), and writes back block (i, j) of the 8×128×128×3×128 result (window 5) after every point.

  Two input windows read one array. Neither writes it, so the array's full share is cut in two halves, one per window;
  every other input is held whole. With that the proof data is the plainest possible: every input buffer holds its
  window's block of the array as the region found it, the output buffer holds `blockOut` of those blocks, nothing is
  carried from point to point. The run then says: every array the pipeline stages ends at what the library computes
  from that data (`Dat.arrAt`), and every other unscoped buffer is as the region found it.
-/
import proofs.«179737_j9955734192542_2_alg».proof.Proof.IdealBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the two slices of the weight. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the two slices, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The slices write the two halves only: each argument array is found as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- After the body at point `t`: each input buffer at its block, the output buffer at `blockOut` of the five blocks.
    The invariant is the scoped rest (this kernel has no scratch: it is empty); the array two windows read is held
    half and half, the others whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => blockOut (iblk m c 0 t) (iblk m c 1 t) (iblk m c 2 t) (iblk m c 3 t) (iblk m c 4 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = blockOut (iblk m c 0 t) (iblk m c 1 t) (iblk m c 2 t) (iblk m c 3 t) (iblk m c 4 t) := by dsimp only [dats]

/-- An input's current buffer holds its window's block at every point, fetched there or not: where it is not fetched the
    block index has not moved and the body left the block in place. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## One array, two readers -/

/-- The five distinct buffers behind the six windows, each whole at its entry contents, are the pipeline's arrays at
    entry: the node features' full share splits into a left half for window 0 and a right half for window 1. -/
theorem arrays_of_buffers (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_eq_bigSepL_of_eq [main_arg0, main_v0, main_v1, main_arg2, main_v2] (by decide) (by decide), bigSep_W0]
  simp only [bigSepL_cons, bigSepL_nil]
  have hw : ∀ (b : Ref sig .tc) (q : PosShare TreeShare) (f : Buf (Elt F) ((c : Thread nD τ).loc b)),
      (View.loc (c : Thread nD τ) (View.whole b) ↦[(View.whole b).set]{q} f : sProp 𝕄) = ((c : Thread nD τ).loc b ↦{q} f) := fun b q f => by
    rw [show (View.whole b).set = Finset.univ from (Memref.isWhole_whole b).set_eq_univ]
  rw [show (dats m 0 c).share 0 = fullShare.left from rfl, show (dats m 0 c).share 1 = fullShare.right from rfl,
    show (dats m 0 c).share 2 = fullShare from rfl, show (dats m 0 c).share 3 = fullShare from rfl,
    show (dats m 0 c).share 4 = fullShare from rfl, show (dats m 0 c).share 5 = fullShare from rfl,
    hw, hw, hw, hw, hw, hw]
  rw [show (dats m 0 c).arrAt 0 0 = V m c main_arg0 from rfl, show (dats m 0 c).arrAt 1 0 = V m c main_arg0 from rfl,
    show (dats m 0 c).arrAt 2 0 = V m c main_v0 from rfl, show (dats m 0 c).arrAt 3 0 = V m c main_v1 from rfl,
    show (dats m 0 c).arrAt 4 0 = V m c main_arg2 from rfl, show (dats m 0 c).arrAt 5 0 = V m c main_v2 from rfl]
  exact (Idealize.SL.BI.sep_mono (pointsTo_share (PosShare.mem_left_op_right fullShare)).1
    (Idealize.SL.BI.sep_mono (Idealize.SL.BI.Entails.refl _) (Idealize.SL.BI.sep_mono (Idealize.SL.BI.Entails.refl _) (Idealize.SL.BI.sep_mono (Idealize.SL.BI.Entails.refl _) Idealize.SL.BI.sep_emp_elim)))).trans
      Idealize.SL.BI.sep_assoc

end Cert.KernelIdeal.Hand

end
-- ==== Proof.IdealLaunch.lean ====
/-
  The launch: from one grid point to the whole program.

  The pipeline library's launch theorem for a kernel whose input windows may read one array asks, beside the body
  obligation, how the buffers behind the arrays make the pipeline's arrays at entry (the two half shares of the node
  features), and how the buffers no window stages — here the unsliced weight — travel around the region: untouched.
  It concludes that each staged array ends at what the library computes from the proof data and every bypassing
  buffer is as the region found it. Reading that conclusion at the three argument arrays gives the frame: an input
  window never writes its array, and the weight bypasses the region.
-/
import proofs.«179737_j9955734192542_2_alg».proof.Proof.IdealRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates; each array a window stages ends
    at the proof data's `arrAt … N`, every other unscoped buffer as the region found it. -/
theorem run_main : θ_run defs (onTc (τ := τ) (main (F := F))) ⟨m, fun _ => 0, ρ⟩ (Pipeline.FramePost cfgs (dats m) 0 (V m)) := by
  classical
  exact Pipeline.θ_run_region_noSem_shared cfgs (dats m) () cellOf_inj (0 : Fin 1) winFacts₀0 emb₁ defs₀ Variants.none m ρ main
    (fun c => (body_obligation m c).loose) block_pos0 arr_whole0 stage_whole0 (fun _ _ => rfl)
    (initOf (Pipeline.cells cfgs cellOf_inj) (Pipeline.launchToks cfgs cellOf_inj)) .rfl
    (V m) (hmain m Variants.none) (arrays_of_buffers m)
    (fun _ => iprop(emp)) (fun _ => iprop(emp))
    (fun c => Pipeline.unscopedRest (Ix := Unit) (Name := ℕ) (U := UR sig nD τ) (Lvl := ℕ) spec0 c (V m c))
    (fun c => by
      iintro H; isplitr
      · iempintro
      · iexact H)
    (fun c => (show iprop((emp : sProp 𝕄) ∗ Pipeline.scopedRest (Ix := Unit) (Name := ℕ) (U := UR sig nD τ) (Lvl := ℕ) (Val := Elt F) spec0 c)
        ⊢ Pipeline.scopedRest (Ix := Unit) (Name := ℕ) (U := UR sig nD τ) (Lvl := ℕ) (Val := Elt F) spec0 c from by
      iintro ⟨-, H⟩; iexact H))
    (fun c => (show Pipeline.scopedRest (Ix := Unit) (Name := ℕ) (U := UR sig nD τ) (Lvl := ℕ) (Val := Elt F) spec0 c
        ⊢ iprop((emp : sProp 𝕄) ∗ Pipeline.scopedRest (Ix := Unit) (Name := ℕ) (U := UR sig nD τ) (Lvl := ℕ) (Val := Elt F) spec0 c) from by
      iintro H; isplitr
      · iempintro
      · iexact H))
    (fun c s => ∀ b ∈ Pipeline.restRefs sig spec0, s.mem ((c.tc : Thread nD τ).loc b) = V m c b)
    (fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (fun s h c => h c)

/-- The frame: the three argument arrays end as they started. The node features and the bias are arrays of input windows,
    which the pipeline never writes; the weight is staged by no window. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans ((A_eq m c 0).trans (V_main_arg0 m c))),
     ((h c).2 main_arg1 (Pipeline.mem_restRefs_of main_arg1 rfl (by decide))).trans (V_main_arg1 m c),
     ((h c).1 4).trans (((dats m 0 c).arrAt_in 4 rfl _).trans ((A_eq m c 4).trans (V_main_arg2 m c)))⟩) (run_main m ρ)

end Cert.KernelIdeal.Hand

end
-- ==== Proof.ChannelValue.lean ====
/-
  One channel of the output block, read at an index, over the extended reals.

  For a fixed channel the body flattens the 8×32×128 slice of the i block to 256×128 (row 32·a + p), multiplies it by
  the first weight half, unflattens, and lays the result along the j axis; it does the same with the 8×16×128 slice of
  the j block (row 16·a + q) and the second half along the i axis; then it adds the two and the bias row. Over the
  extended reals a change of float format is the identity and a product into a zero accumulator is a plain finite sum,
  so entry (a, p, q, l) of the channel is
      Σ_k xi[a, p, k] · w1[k, l]  +  Σ_k xj[a, q, k] · w2[k, l]  +  b[l].
  Each layout operation is read at an index by the equality of row-major positions.
-/
import proofs.«179737_j9955734192542_2_alg».proof.Proof.IdealBody
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx Idealize.SL.Sem

variable {α : Type}

/-! ## Rows of the flattened slices -/

/-- Row 32·a + p of the flattened i slice. -/
abbrev rowI (a : Fin 8) (p : Fin 32) : Fin 256 := ⟨a.val * 32 + p.val, by omega⟩
/-- Row 16·a + q of the flattened j slice. -/
abbrev rowJ (a : Fin 8) (q : Fin 16) : Fin 128 := ⟨a.val * 16 + q.val, by omega⟩

/-! ## The layout operations, each read at an index -/

theorem cast_out_unit (v : S8x32x16x128.Idx → α) (h : S8x32x16x128.ShapeCasts S8x32x16x1x128) (a : Fin 8) (p : Fin 32) (q : Fin 16) (z : Fin 1) (l : Fin 128) :
    shapeCast S8x32x16x1x128 v h (ix5 a p q z l) = v (ix4 a p q l) :=
  shapeCast_apply v h (ix5 a p q z l) (ix4 a p q l) (by
    rewrite [Shape.rowMajor_val_four, Shape.rowMajor_val_five]
    have hz := z.isLt
    show ((a.val * 32 + p.val) * 16 + q.val) * 128 + l.val = (((a.val * 32 + p.val) * 16 + q.val) * 1 + z.val) * 128 + l.val
    omega)

theorem bcast_along_j (v : S8x32x1x128.Idx → α) (h : S8x32x1x128.Broadcasts S8x32x16x128) (a : Fin 8) (p : Fin 32) (q : Fin 16) (l : Fin 128) :
    broadcastTo S8x32x16x128 v h (ix4 a p q l) = v (ix4 a p (0 : Fin 1) l) :=
  broadcastTo_apply v h (ix4 a p q l) (ix4 a p (0 : Fin 1) l) (fun d => match d with
    | ⟨0, _⟩ => by show a.val = if (8 : Nat) = 1 then 0 else a.val; rw [if_neg (by decide)]
    | ⟨1, _⟩ => by show p.val = if (32 : Nat) = 1 then 0 else p.val; rw [if_neg (by decide)]
    | ⟨2, _⟩ => by show (0 : Nat) = if (1 : Nat) = 1 then 0 else q.val; rw [if_pos rfl]
    | ⟨3, _⟩ => by show l.val = if (128 : Nat) = 1 then 0 else l.val; rw [if_neg (by decide)])

theorem bcast_along_i (v : S8x1x16x128.Idx → α) (h : S8x1x16x128.Broadcasts S8x32x16x128) (a : Fin 8) (p : Fin 32) (q : Fin 16) (l : Fin 128) :
    broadcastTo S8x32x16x128 v h (ix4 a p q l) = v (ix4 a (0 : Fin 1) q l) :=
  broadcastTo_apply v h (ix4 a p q l) (ix4 a (0 : Fin 1) q l) (fun d => match d with
    | ⟨0, _⟩ => by show a.val = if (8 : Nat) = 1 then 0 else a.val; rw [if_neg (by decide)]
    | ⟨1, _⟩ => by show (0 : Nat) = if (1 : Nat) = 1 then 0 else p.val; rw [if_pos rfl]
    | ⟨2, _⟩ => by show q.val = if (16 : Nat) = 1 then 0 else q.val; rw [if_neg (by decide)]
    | ⟨3, _⟩ => by show l.val = if (128 : Nat) = 1 then 0 else l.val; rw [if_neg (by decide)])

theorem bcast_bias (v : S1x1x1x128.Idx → α) (h : S1x1x1x128.Broadcasts S8x32x16x128) (a : Fin 8) (p : Fin 32) (q : Fin 16) (l : Fin 128) :
    broadcastTo S8x32x16x128 v h (ix4 a p q l) = v (ix4 (0 : Fin 1) (0 : Fin 1) (0 : Fin 1) l) :=
  broadcastTo_apply v h (ix4 a p q l) (ix4 (0 : Fin 1) (0 : Fin 1) (0 : Fin 1) l) (fun d => match d with
    | ⟨0, _⟩ => by show (0 : Nat) = if (1 : Nat) = 1 then 0 else a.val; rw [if_pos rfl]
    | ⟨1, _⟩ => by show (0 : Nat) = if (1 : Nat) = 1 then 0 else p.val; rw [if_pos rfl]
    | ⟨2, _⟩ => by show (0 : Nat) = if (1 : Nat) = 1 then 0 else q.val; rw [if_pos rfl]
    | ⟨3, _⟩ => by show l.val = if (128 : Nat) = 1 then 0 else l.val; rw [if_neg (by decide)])

theorem cast_i_unit (v : S8x32x128.Idx → α) (h : S8x32x128.ShapeCasts S8x32x1x128) (a : Fin 8) (p : Fin 32) (z : Fin 1) (l : Fin 128) :
    shapeCast S8x32x1x128 v h (ix4 a p z l) = v (ix3 a p l) :=
  shapeCast_apply v h (ix4 a p z l) (ix3 a p l) (by
    rewrite [Shape.rowMajor_val_three, Shape.rowMajor_val_four]
    have hz := z.isLt
    show (a.val * 32 + p.val) * 128 + l.val = ((a.val * 32 + p.val) * 1 + z.val) * 128 + l.val
    omega)

theorem cast_j_unit (v : S8x16x128.Idx → α) (h : S8x16x128.ShapeCasts S8x1x16x128) (a : Fin 8) (z : Fin 1) (q : Fin 16) (l : Fin 128) :
    shapeCast S8x1x16x128 v h (ix4 a z q l) = v (ix3 a q l) :=
  shapeCast_apply v h (ix4 a z q l) (ix3 a q l) (by
    rewrite [Shape.rowMajor_val_three, Shape.rowMajor_val_four]
    have hz := z.isLt
    show (a.val * 16 + q.val) * 128 + l.val = ((a.val * 1 + z.val) * 16 + q.val) * 128 + l.val
    omega)

theorem cast_bias_units (v : S1x128.Idx → α) (h : S1x128.ShapeCasts S1x1x1x128) (z0 z1 z2 : Fin 1) (l : Fin 128) :
    shapeCast S1x1x1x128 v h (ix4 z0 z1 z2 l) = v (ix2 (0 : Fin 1) l) :=
  shapeCast_apply v h (ix4 z0 z1 z2 l) (ix2 (0 : Fin 1) l) (by
    rewrite [Shape.rowMajor_val_two, Shape.rowMajor_val_four]
    have h0 := z0.isLt; have h1 := z1.isLt; have h2 := z2.isLt
    show 0 * 128 + l.val = ((z0.val * 1 + z1.val) * 1 + z2.val) * 128 + l.val
    omega)

theorem unflatten_i (v : S256x128.Idx → α) (h : S256x128.ShapeCasts S8x32x128) (a : Fin 8) (p : Fin 32) (l : Fin 128) :
    shapeCast S8x32x128 v h (ix3 a p l) = v (ix2 (rowI a p) l) :=
  shapeCast_apply v h (ix3 a p l) (ix2 (rowI a p) l) (by
    rewrite [Shape.rowMajor_val_two, Shape.rowMajor_val_three]
    show (a.val * 32 + p.val) * 128 + l.val = (a.val * 32 + p.val) * 128 + l.val
    rfl)

theorem unflatten_j (v : S128x128.Idx → α) (h : S128x128.ShapeCasts S8x16x128) (a : Fin 8) (q : Fin 16) (l : Fin 128) :
    shapeCast S8x16x128 v h (ix3 a q l) = v (ix2 (rowJ a q) l) :=
  shapeCast_apply v h (ix3 a q l) (ix2 (rowJ a q) l) (by
    rewrite [Shape.rowMajor_val_two, Shape.rowMajor_val_three]
    show (a.val * 16 + q.val) * 128 + l.val = (a.val * 16 + q.val) * 128 + l.val
    rfl)

theorem flatten_i (v : S8x32x128.Idx → α) (h : S8x32x128.ShapeCasts S256x128) (a : Fin 8) (p : Fin 32) (k : Fin 128) :
    shapeCast S256x128 v h (ix2 (rowI a p) k) = v (ix3 a p k) :=
  shapeCast_apply v h (ix2 (rowI a p) k) (ix3 a p k) (by
    rewrite [Shape.rowMajor_val_two, Shape.rowMajor_val_three]
    show (a.val * 32 + p.val) * 128 + k.val = (a.val * 32 + p.val) * 128 + k.val
    rfl)

theorem flatten_j (v : S8x16x128.Idx → α) (h : S8x16x128.ShapeCasts S128x128) (a : Fin 8) (q : Fin 16) (k : Fin 128) :
    shapeCast S128x128 v h (ix2 (rowJ a q) k) = v (ix3 a q k) :=
  shapeCast_apply v h (ix2 (rowJ a q) k) (ix3 a q k) (by
    rewrite [Shape.rowMajor_val_two, Shape.rowMajor_val_three]
    show (a.val * 16 + q.val) * 128 + k.val = (a.val * 16 + q.val) * 128 + k.val
    rfl)

theorem slice_i_unit (v : S8x32x1x128.Idx → α) (h : S8x32x1x128.ShapeCasts S8x32x128) (a : Fin 8) (p : Fin 32) (k : Fin 128) :
    shapeCast S8x32x128 v h (ix3 a p k) = v (ix4 a p (0 : Fin 1) k) :=
  shapeCast_apply v h (ix3 a p k) (ix4 a p (0 : Fin 1) k) (by
    rewrite [Shape.rowMajor_val_three, Shape.rowMajor_val_four]
    show ((a.val * 32 + p.val) * 1 + 0) * 128 + k.val = (a.val * 32 + p.val) * 128 + k.val
    omega)

theorem slice_j_unit (v : S8x16x1x128.Idx → α) (h : S8x16x1x128.ShapeCasts S8x16x128) (a : Fin 8) (q : Fin 16) (k : Fin 128) :
    shapeCast S8x16x128 v h (ix3 a q k) = v (ix4 a q (0 : Fin 1) k) :=
  shapeCast_apply v h (ix3 a q k) (ix4 a q (0 : Fin 1) k) (by
    rewrite [Shape.rowMajor_val_three, Shape.rowMajor_val_four]
    show ((a.val * 16 + q.val) * 1 + 0) * 128 + k.val = (a.val * 16 + q.val) * 128 + k.val
    omega)

/-! ## The two matrix products -/

theorem prodI_lhs0 (j : S256x128.Idx) (q : dot_S256x128_S128x128_S256x128_1_0_0_1_n_n.contr.Idx) : (dot_S256x128_S128x128_S256x128_1_0_0_1_n_n.lhsIdx j q 0).val = (j 0).val := by
  unfold DotDims.lhsIdx
  rw [dif_neg (show ¬(0 : Fin S256x128.rank) ∈ dot_S256x128_S128x128_S256x128_1_0_0_1_n_n.lhsBatch by decide), dif_pos (show (0 : Fin S256x128.rank) ∈ dot_S256x128_S128x128_S256x128_1_0_0_1_n_n.lhsNonContracting by decide)]
  rfl
theorem prodI_lhs1 (j : S256x128.Idx) (q : dot_S256x128_S128x128_S256x128_1_0_0_1_n_n.contr.Idx) : (dot_S256x128_S128x128_S256x128_1_0_0_1_n_n.lhsIdx j q 1).val = (q ⟨0, by decide⟩).val :=
  dot_S256x128_S128x128_S256x128_1_0_0_1_n_n.lhsIdx_val_of_single rfl j q
theorem prodI_rhs0 (j : S256x128.Idx) (q : dot_S256x128_S128x128_S256x128_1_0_0_1_n_n.contr.Idx) : (dot_S256x128_S128x128_S256x128_1_0_0_1_n_n.rhsIdx j q 0).val = (q ⟨0, by decide⟩).val :=
  dot_S256x128_S128x128_S256x128_1_0_0_1_n_n.rhsIdx_val_of_single rfl j q
theorem prodI_rhs1 (j : S256x128.Idx) (q : dot_S256x128_S128x128_S256x128_1_0_0_1_n_n.contr.Idx) : (dot_S256x128_S128x128_S256x128_1_0_0_1_n_n.rhsIdx j q 1).val = (j 1).val := by
  unfold DotDims.rhsIdx
  rw [dif_neg (show ¬(1 : Fin S128x128.rank) ∈ dot_S256x128_S128x128_S256x128_1_0_0_1_n_n.rhsBatch by decide), dif_pos (show (1 : Fin S128x128.rank) ∈ dot_S256x128_S128x128_S256x128_1_0_0_1_n_n.rhsNonContracting by decide)]
  rfl

/-- The product into a zero accumulator, read at (r, l): the sum over k of row r of the left factor times column l of the right. -/
theorem prodI_apply (lhs : FVec Ideal S256x128 .bf16) (rhs : FVec Ideal S128x128 .bf16) (r : Fin 256) (l : Fin 128) :
    matmul dot_S256x128_S128x128_S256x128_1_0_0_1_n_n none lhs rhs (constant (F := Ideal) S256x128 .f32 0x00000000#32) (ix2 r l) = ∑ k : Fin 128, lhs (ix2 r k) * rhs (ix2 k l) := by
  simp only [matmul]
  rw [Ideal.matmul_constant_zero_apply, ← Equiv.sum_comp (ValueIdx.contrEquiv1 dot_S256x128_S128x128_S256x128_1_0_0_1_n_n 128 rfl rfl).symm]
  refine Finset.sum_congr rfl fun k _ => ?_
  have hk := ValueIdx.contrEquiv1_symm_val dot_S256x128_S128x128_S256x128_1_0_0_1_n_n 128 rfl rfl k
  have el : dot_S256x128_S128x128_S256x128_1_0_0_1_n_n.lhsIdx (ix2 r l) ((ValueIdx.contrEquiv1 dot_S256x128_S128x128_S256x128_1_0_0_1_n_n 128 rfl rfl).symm k) = ix2 r k := funext fun a => Fin.ext (by
    match a with
    | ⟨0, _⟩ => exact prodI_lhs0 _ _
    | ⟨1, _⟩ => exact (prodI_lhs1 _ _).trans hk)
  have er : dot_S256x128_S128x128_S256x128_1_0_0_1_n_n.rhsIdx (ix2 r l) ((ValueIdx.contrEquiv1 dot_S256x128_S128x128_S256x128_1_0_0_1_n_n 128 rfl rfl).symm k) = ix2 k l := funext fun a => Fin.ext (by
    match a with
    | ⟨0, _⟩ => exact (prodI_rhs0 _ _).trans hk
    | ⟨1, _⟩ => exact prodI_rhs1 _ _)
  rw [el, er]

theorem prodJ_lhs0 (j : S128x128.Idx) (q : dot_S128x128_S128x128_S128x128_1_0_0_1_n_n.contr.Idx) : (dot_S128x128_S128x128_S128x128_1_0_0_1_n_n.lhsIdx j q 0).val = (j 0).val := by
  unfold DotDims.lhsIdx
  rw [dif_neg (show ¬(0 : Fin S128x128.rank) ∈ dot_S128x128_S128x128_S128x128_1_0_0_1_n_n.lhsBatch by decide), dif_pos (show (0 : Fin S128x128.rank) ∈ dot_S128x128_S128x128_S128x128_1_0_0_1_n_n.lhsNonContracting by decide)]
  rfl
theorem prodJ_lhs1 (j : S128x128.Idx) (q : dot_S128x128_S128x128_S128x128_1_0_0_1_n_n.contr.Idx) : (dot_S128x128_S128x128_S128x128_1_0_0_1_n_n.lhsIdx j q 1).val = (q ⟨0, by decide⟩).val :=
  dot_S128x128_S128x128_S128x128_1_0_0_1_n_n.lhsIdx_val_of_single rfl j q
theorem prodJ_rhs0 (j : S128x128.Idx) (q : dot_S128x128_S128x128_S128x128_1_0_0_1_n_n.contr.Idx) : (dot_S128x128_S128x128_S128x128_1_0_0_1_n_n.rhsIdx j q 0).val = (q ⟨0, by decide⟩).val :=
  dot_S128x128_S128x128_S128x128_1_0_0_1_n_n.rhsIdx_val_of_single rfl j q
theorem prodJ_rhs1 (j : S128x128.Idx) (q : dot_S128x128_S128x128_S128x128_1_0_0_1_n_n.contr.Idx) : (dot_S128x128_S128x128_S128x128_1_0_0_1_n_n.rhsIdx j q 1).val = (j 1).val := by
  unfold DotDims.rhsIdx
  rw [dif_neg (show ¬(1 : Fin S128x128.rank) ∈ dot_S128x128_S128x128_S128x128_1_0_0_1_n_n.rhsBatch by decide), dif_pos (show (1 : Fin S128x128.rank) ∈ dot_S128x128_S128x128_S128x128_1_0_0_1_n_n.rhsNonContracting by decide)]
  rfl

/-- The product into a zero accumulator, read at (r, l): the sum over k of row r of the left factor times column l of the right. -/
theorem prodJ_apply (lhs : FVec Ideal S128x128 .bf16) (rhs : FVec Ideal S128x128 .bf16) (r : Fin 128) (l : Fin 128) :
    matmul dot_S128x128_S128x128_S128x128_1_0_0_1_n_n none lhs rhs (constant (F := Ideal) S128x128 .f32 0x00000000#32) (ix2 r l) = ∑ k : Fin 128, lhs (ix2 r k) * rhs (ix2 k l) := by
  simp only [matmul]
  rw [Ideal.matmul_constant_zero_apply, ← Equiv.sum_comp (ValueIdx.contrEquiv1 dot_S128x128_S128x128_S128x128_1_0_0_1_n_n 128 rfl rfl).symm]
  refine Finset.sum_congr rfl fun k _ => ?_
  have hk := ValueIdx.contrEquiv1_symm_val dot_S128x128_S128x128_S128x128_1_0_0_1_n_n 128 rfl rfl k
  have el : dot_S128x128_S128x128_S128x128_1_0_0_1_n_n.lhsIdx (ix2 r l) ((ValueIdx.contrEquiv1 dot_S128x128_S128x128_S128x128_1_0_0_1_n_n 128 rfl rfl).symm k) = ix2 r k := funext fun a => Fin.ext (by
    match a with
    | ⟨0, _⟩ => exact prodJ_lhs0 _ _
    | ⟨1, _⟩ => exact (prodJ_lhs1 _ _).trans hk)
  have er : dot_S128x128_S128x128_S128x128_1_0_0_1_n_n.rhsIdx (ix2 r l) ((ValueIdx.contrEquiv1 dot_S128x128_S128x128_S128x128_1_0_0_1_n_n 128 rfl rfl).symm k) = ix2 k l := funext fun a => Fin.ext (by
    match a with
    | ⟨0, _⟩ => exact (prodJ_rhs0 _ _).trans hk
    | ⟨1, _⟩ => exact prodJ_rhs1 _ _)
  rw [el, er]

/-! ## A channel's payload at an index -/

/-- Entry (a, p, q, ·, l) of a channel's payload, from the channel slices `xc`, `yc` of the i and j blocks, the weight
    halves and the bias. -/
theorem channel_apply (W1 W2 : FVec Ideal S128x128 .f32) (b : FVec Ideal S1x128 .f32) (xc : FVec Ideal S8x32x1x128 .f32) (yc : FVec Ideal S8x16x1x128 .f32)
    (a : Fin 8) (p : Fin 32) (q : Fin 16) (z : Fin 1) (l : Fin 128) :
    k0_pay4 (F := Ideal) W1 W2 b xc yc (ix5 a p q z l)
      = (∑ k : Fin 128, xc (ix4 a p (0 : Fin 1) k) * W1 (ix2 k l) + ∑ k : Fin 128, yc (ix4 a q (0 : Fin 1) k) * W2 (ix2 k l)) + b (ix2 (0 : Fin 1) l) := by
  unfold k0_pay4 k0_pay2 k0_pay3
  simp only [cast_out_unit, addf_apply, bcast_along_j, bcast_along_i, bcast_bias, cast_i_unit, cast_j_unit, cast_bias_units,
    unflatten_i, unflatten_j, prodI_apply, prodJ_apply, flatten_i, flatten_j, truncf_apply, slice_i_unit, slice_j_unit, shapeCast_self]

/-- The three channels' payloads are one function of their channel slices. -/
theorem chan0_eq (xi : Vec Ideal S8x32x3x128 .f32) (xj : Vec Ideal S8x16x3x128 .f32) (w1 w2 : Vec Ideal S128x128 .f32) (b : Vec Ideal S1x128 .f32) :
    chan0 xi xj w1 w2 b = k0_pay4 (F := Ideal) (View.ld w1 rW) (View.ld w2 rW) (View.ld b rB) (View.ld xi rI0) (View.ld xj rJ0) := rfl
theorem chan1_eq (xi : Vec Ideal S8x32x3x128 .f32) (xj : Vec Ideal S8x16x3x128 .f32) (w1 w2 : Vec Ideal S128x128 .f32) (b : Vec Ideal S1x128 .f32) :
    chan1 xi xj w1 w2 b = k0_pay4 (F := Ideal) (View.ld w1 rW) (View.ld w2 rW) (View.ld b rB) (View.ld xi rI1) (View.ld xj rJ1) := rfl
theorem chan2_eq (xi : Vec Ideal S8x32x3x128 .f32) (xj : Vec Ideal S8x16x3x128 .f32) (w1 w2 : Vec Ideal S128x128 .f32) (b : Vec Ideal S1x128 .f32) :
    chan2 xi xj w1 w2 b = k0_pay4 (F := Ideal) (View.ld w1 rW) (View.ld w2 rW) (View.ld b rB) (View.ld xi rI2) (View.ld xj rJ2) := rfl

end Cert.KernelIdeal.Hand

end
-- ==== Proof.BlockValue.lean ====
/-
  The output block as ONE function of the five input blocks.

  The three channel stores write disjoint rectangles that tile the 8×32×16×3×128 block, and each store's payload, read
  at its local index, is the same formula evaluated at the block index the rectangle sends it to:
      out[a, p, q, c, l] = Σ_k xi[a, p, c, k] · w1[k, l] + Σ_k xj[a, q, c, k] · w2[k, l] + b[0, l].
  So the overlay of the three payloads is that one function of the block index.
-/
import proofs.«179737_j9955734192542_2_alg».proof.Proof.ChannelValue

noncomputable section

namespace Cert.KernelIdeal.Hand

open Cert.KernelIdeal Cert.KernelIdeal.Gen
open Idealize.ShloMosaic Idealize.ShloMosaic.TcCoe Idealize.ShloMosaic.ValueIdx Idealize.SL.Sem

/-- Entry (a, p, q, c, l) of the output block from the i block, the j block, the weight halves and the bias. -/
def blockFn (xi : FVec Ideal S8x32x3x128 .f32) (xj : FVec Ideal S8x16x3x128 .f32) (w1 w2 : FVec Ideal S128x128 .f32) (b : FVec Ideal S1x128 .f32) :
    FVec Ideal S8x32x16x3x128 .f32 :=
  fun y => (∑ k : Fin 128, xi (ix4 (n0 := 8) (n1 := 32) (n2 := 3) (n3 := 128) (y 0) (y 1) (y 3) k) * w1 (ix2 (n0 := 128) (n1 := 128) k (y 4))
      + ∑ k : Fin 128, xj (ix4 (n0 := 8) (n1 := 16) (n2 := 3) (n3 := 128) (y 0) (y 2) (y 3) k) * w2 (ix2 (n0 := 128) (n1 := 128) k (y 4)))
    + b (ix2 (n0 := 1) (n1 := 128) (0 : Fin 1) (y 4))

/-- What the body leaves in the output block is that function. -/
theorem blockOut_eq (xi : FVec Ideal S8x32x3x128 .f32) (xj : FVec Ideal S8x16x3x128 .f32) (w1 w2 : FVec Ideal S128x128 .f32) (b : FVec Ideal S1x128 .f32) :
    blockOut (F := Ideal) xi xj w1 w2 b = blockFn xi xj w1 w2 b := by
  funext y
  unfold blockOut
  refine View.canon_apply_of_pieces (Val := Elt Ideal) (e := .f32) (blockFn xi xj w1 w2 b : S8x32x16x3x128.Idx → Elt Ideal .f32) _ ?_ y (chans_cover _ _ _ y)
  intro pc hpc x
  simp only [List.mem_cons, List.not_mem_nil, or_false] at hpc
  rcases hpc with rfl | rfl | rfl

  · -- channel 2
    show chan2 xi xj w1 w2 b x = blockFn xi xj w1 w2 b (rO2.emb x)
    obtain ⟨a, p, q, z, l, rfl⟩ : ∃ (a : Fin 8) (p : Fin 32) (q : Fin 16) (z : Fin 1) (l : Fin 128), (x : S8x32x16x1x128.Idx) = ix5 a p q z l :=
      ⟨x 0, x 1, x 2, x 3, x 4, eq_ix5 x⟩
    obtain rfl : z = 0 := Subsingleton.elim _ _
    have hxi : ∀ k : Fin 128, (View.ld (Val := Elt Ideal) (e' := .f32) xi rI2 : S8x32x1x128.Idx → EReal) (ix4 a p (0 : Fin 1) k)
        = xi (ix4 (n0 := 8) (n1 := 32) (n2 := 3) (n3 := 128) ((rO2.emb (ix5 a p q (0 : Fin 1) l)) 0) ((rO2.emb (ix5 a p q (0 : Fin 1) l)) 1) ((rO2.emb (ix5 a p q (0 : Fin 1) l)) 3) k) := by
      intro k
      show xi (rI2.emb (ix4 a p (0 : Fin 1) k)) = xi _
      refine congrArg xi (funext fun d => Fin.ext ?_)
      match d with
      | ⟨0, _⟩ => rfl
      | ⟨1, _⟩ => rfl
      | ⟨2, _⟩ => rfl
      | ⟨3, _⟩ => show 0 + 1 * k.val = k.val; omega
    have hxj : ∀ k : Fin 128, (View.ld (Val := Elt Ideal) (e' := .f32) xj rJ2 : S8x16x1x128.Idx → EReal) (ix4 a q (0 : Fin 1) k)
        = xj (ix4 (n0 := 8) (n1 := 16) (n2 := 3) (n3 := 128) ((rO2.emb (ix5 a p q (0 : Fin 1) l)) 0) ((rO2.emb (ix5 a p q (0 : Fin 1) l)) 2) ((rO2.emb (ix5 a p q (0 : Fin 1) l)) 3) k) := by
      intro k
      show xj (rJ2.emb (ix4 a q (0 : Fin 1) k)) = xj _
      refine congrArg xj (funext fun d => Fin.ext ?_)
      match d with
      | ⟨0, _⟩ => rfl
      | ⟨1, _⟩ => rfl
      | ⟨2, _⟩ => rfl
      | ⟨3, _⟩ => show 0 + 1 * k.val = k.val; omega
    have hw1 : ∀ k : Fin 128, (View.ld (Val := Elt Ideal) (e' := .f32) w1 rW : S128x128.Idx → EReal) (ix2 k l) = w1 (ix2 (n0 := 128) (n1 := 128) k ((rO2.emb (ix5 a p q (0 : Fin 1) l)) 4)) := by
      intro k
      show w1 (rW.emb (ix2 k l)) = w1 _
      refine congrArg w1 (funext fun d => Fin.ext ?_)
      match d with
      | ⟨0, _⟩ => show 0 + 1 * k.val = k.val; omega
      | ⟨1, _⟩ => rfl
    have hw2 : ∀ k : Fin 128, (View.ld (Val := Elt Ideal) (e' := .f32) w2 rW : S128x128.Idx → EReal) (ix2 k l) = w2 (ix2 (n0 := 128) (n1 := 128) k ((rO2.emb (ix5 a p q (0 : Fin 1) l)) 4)) := by
      intro k
      show w2 (rW.emb (ix2 k l)) = w2 _
      refine congrArg w2 (funext fun d => Fin.ext ?_)
      match d with
      | ⟨0, _⟩ => show 0 + 1 * k.val = k.val; omega
      | ⟨1, _⟩ => rfl
    have hb : (View.ld (Val := Elt Ideal) (e' := .f32) b rB : S1x128.Idx → EReal) (ix2 (0 : Fin 1) l) = b (ix2 (n0 := 1) (n1 := 128) (0 : Fin 1) ((rO2.emb (ix5 a p q (0 : Fin 1) l)) 4)) := by
      show b (rB.emb (ix2 (0 : Fin 1) l)) = b _
      refine congrArg b (funext fun d => Fin.ext ?_)
      match d with
      | ⟨0, _⟩ => rfl
      | ⟨1, _⟩ => rfl
    rw [chan2_eq, channel_apply]
    unfold blockFn
    simp only [hxi, hxj, hw1, hw2, hb]

  · -- channel 1
    show chan1 xi xj w1 w2 b x = blockFn xi xj w1 w2 b (rO1.emb x)
    obtain ⟨a, p, q, z, l, rfl⟩ : ∃ (a : Fin 8) (p : Fin 32) (q : Fin 16) (z : Fin 1) (l : Fin 128), (x : S8x32x16x1x128.Idx) = ix5 a p q z l :=
      ⟨x 0, x 1, x 2, x 3, x 4, eq_ix5 x⟩
    obtain rfl : z = 0 := Subsingleton.elim _ _
    have hxi : ∀ k : Fin 128, (View.ld (Val := Elt Ideal) (e' := .f32) xi rI1 : S8x32x1x128.Idx → EReal) (ix4 a p (0 : Fin 1) k)
        = xi (ix4 (n0 := 8) (n1 := 32) (n2 := 3) (n3 := 128) ((rO1.emb (ix5 a p q (0 : Fin 1) l)) 0) ((rO1.emb (ix5 a p q (0 : Fin 1) l)) 1) ((rO1.emb (ix5 a p q (0 : Fin 1) l)) 3) k) := by
      intro k
      show xi (rI1.emb (ix4 a p (0 : Fin 1) k)) = xi _
      refine congrArg xi (funext fun d => Fin.ext ?_)
      match d with
      | ⟨0, _⟩ => rfl
      | ⟨1, _⟩ => rfl
      | ⟨2, _⟩ => rfl
      | ⟨3, _⟩ => show 0 + 1 * k.val = k.val; omega
    have hxj : ∀ k : Fin 128, (View.ld (Val := Elt Ideal) (e' := .f32) xj rJ1 : S8x16x1x128.Idx → EReal) (ix4 a q (0 : Fin 1) k)
        = xj (ix4 (n0 := 8) (n1 := 16) (n2 := 3) (n3 := 128) ((rO1.emb (ix5 a p q (0 : Fin 1) l)) 0) ((rO1.emb (ix5 a p q (0 : Fin 1) l)) 2) ((rO1.emb (ix5 a p q (0 : Fin 1) l)) 3) k) := by
      intro k
      show xj (rJ1.emb (ix4 a q (0 : Fin 1) k)) = xj _
      refine congrArg xj (funext fun d => Fin.ext ?_)
      match d with
      | ⟨0, _⟩ => rfl
      | ⟨1, _⟩ => rfl
      | ⟨2, _⟩ => rfl
      | ⟨3, _⟩ => show 0 + 1 * k.val = k.val; omega
    have hw1 : ∀ k : Fin 128, (View.ld (Val := Elt Ideal) (e' := .f32) w1 rW : S128x128.Idx → EReal) (ix2 k l) = w1 (ix2 (n0 := 128) (n1 := 128) k ((rO1.emb (ix5 a p q (0 : Fin 1) l)) 4)) := by
      intro k
      show w1 (rW.emb (ix2 k l)) = w1 _
      refine congrArg w1 (funext fun d => Fin.ext ?_)
      match d with
      | ⟨0, _⟩ => show 0 + 1 * k.val = k.val; omega
      | ⟨1, _⟩ => rfl
    have hw2 : ∀ k : Fin 128, (View.ld (Val := Elt Ideal) (e' := .f32) w2 rW : S128x128.Idx → EReal) (ix2 k l) = w2 (ix2 (n0 := 128) (n1 := 128) k ((rO1.emb (ix5 a p q (0 : Fin 1) l)) 4)) := by
      intro k
      show w2 (rW.emb (ix2 k l)) = w2 _
      refine congrArg w2 (funext fun d => Fin.ext ?_)
      match d with
      | ⟨0, _⟩ => show 0 + 1 * k.val = k.val; omega
      | ⟨1, _⟩ => rfl
    have hb : (View.ld (Val := Elt Ideal) (e' := .f32) b rB : S1x128.Idx → EReal) (ix2 (0 : Fin 1) l) = b (ix2 (n0 := 1) (n1 := 128) (0 : Fin 1) ((rO1.emb (ix5 a p q (0 : Fin 1) l)) 4)) := by
      show b (rB.emb (ix2 (0 : Fin 1) l)) = b _
      refine congrArg b (funext fun d => Fin.ext ?_)
      match d with
      | ⟨0, _⟩ => rfl
      | ⟨1, _⟩ => rfl
    rw [chan1_eq, channel_apply]
    unfold blockFn
    simp only [hxi, hxj, hw1, hw2, hb]

  · -- channel 0
    show chan0 xi xj w1 w2 b x = blockFn xi xj w1 w2 b (rO0.emb x)
    obtain ⟨a, p, q, z, l, rfl⟩ : ∃ (a : Fin 8) (p : Fin 32) (q : Fin 16) (z : Fin 1) (l : Fin 128), (x : S8x32x16x1x128.Idx) = ix5 a p q z l :=
      ⟨x 0, x 1, x 2, x 3, x 4, eq_ix5 x⟩
    obtain rfl : z = 0 := Subsingleton.elim _ _
    have hxi : ∀ k : Fin 128, (View.ld (Val := Elt Ideal) (e' := .f32) xi rI0 : S8x32x1x128.Idx → EReal) (ix4 a p (0 : Fin 1) k)
        = xi (ix4 (n0 := 8) (n1 := 32) (n2 := 3) (n3 := 128) ((rO0.emb (ix5 a p q (0 : Fin 1) l)) 0) ((rO0.emb (ix5 a p q (0 : Fin 1) l)) 1) ((rO0.emb (ix5 a p q (0 : Fin 1) l)) 3) k) := by
      intro k
      show xi (rI0.emb (ix4 a p (0 : Fin 1) k)) = xi _
      refine congrArg xi (funext fun d => Fin.ext ?_)
      match d with
      | ⟨0, _⟩ => rfl
      | ⟨1, _⟩ => rfl
      | ⟨2, _⟩ => rfl
      | ⟨3, _⟩ => show 0 + 1 * k.val = k.val; omega
    have hxj : ∀ k : Fin 128, (View.ld (Val := Elt Ideal) (e' := .f32) xj rJ0 : S8x16x1x128.Idx → EReal) (ix4 a q (0 : Fin 1) k)
        = xj (ix4 (n0 := 8) (n1 := 16) (n2 := 3) (n3 := 128) ((rO0.emb (ix5 a p q (0 : Fin 1) l)) 0) ((rO0.emb (ix5 a p q (0 : Fin 1) l)) 2) ((rO0.emb (ix5 a p q (0 : Fin 1) l)) 3) k) := by
      intro k
      show xj (rJ0.emb (ix4 a q (0 : Fin 1) k)) = xj _
      refine congrArg xj (funext fun d => Fin.ext ?_)
      match d with
      | ⟨0, _⟩ => rfl
      | ⟨1, _⟩ => rfl
      | ⟨2, _⟩ => rfl
      | ⟨3, _⟩ => show 0 + 1 * k.val = k.val; omega
    have hw1 : ∀ k : Fin 128, (View.ld (Val := Elt Ideal) (e' := .f32) w1 rW : S128x128.Idx → EReal) (ix2 k l) = w1 (ix2 (n0 := 128) (n1 := 128) k ((rO0.emb (ix5 a p q (0 : Fin 1) l)) 4)) := by
      intro k
      show w1 (rW.emb (ix2 k l)) = w1 _
      refine congrArg w1 (funext fun d => Fin.ext ?_)
      match d with
      | ⟨0, _⟩ => show 0 + 1 * k.val = k.val; omega
      | ⟨1, _⟩ => rfl
    have hw2 : ∀ k : Fin 128, (View.ld (Val := Elt Ideal) (e' := .f32) w2 rW : S128x128.Idx → EReal) (ix2 k l) = w2 (ix2 (n0 := 128) (n1 := 128) k ((rO0.emb (ix5 a p q (0 : Fin 1) l)) 4)) := by
      intro k
      show w2 (rW.emb (ix2 k l)) = w2 _
      refine congrArg w2 (funext fun d => Fin.ext ?_)
      match d with
      | ⟨0, _⟩ => show 0 + 1 * k.val = k.val; omega
      | ⟨1, _⟩ => rfl
    have hb : (View.ld (Val := Elt Ideal) (e' := .f32) b rB : S1x128.Idx → EReal) (ix2 (0 : Fin 1) l) = b (ix2 (n0 := 1) (n1 := 128) (0 : Fin 1) ((rO0.emb (ix5 a p q (0 : Fin 1) l)) 4)) := by
      show b (rB.emb (ix2 (0 : Fin 1) l)) = b _
      refine congrArg b (funext fun d => Fin.ext ?_)
      match d with
      | ⟨0, _⟩ => rfl
      | ⟨1, _⟩ => rfl
    rw [chan0_eq, channel_apply]
    unfold blockFn
    simp only [hxi, hxj, hw1, hw2, hb]

end Cert.KernelIdeal.Hand

end
-- ==== Proof.Spec.lean ====
/-
  The result as ONE function of the three arguments, over the extended reals:

      out[a, i, j, c, l] = Σ_k x[a, i, c, k] · W[k, l]  +  Σ_k x[a, j, c, k] · W[128 + k, l]  +  b[0, l]

  for x the 8×128×3×128 node features, W the 256×128 weight (its upper half acts on node i, its lower half on node j)
  and b the 1×128 bias. Both programs compute this: only the order and grouping of the two finite sums differ, and
  addition of extended reals is commutative and associative, so no finiteness of the inputs is used.
-/
import Idealize.ShloMosaic.PureOps.Ideal
import Idealize.ShloMosaic.Lib.ValueIdx

noncomputable section

namespace Cert.PairwiseLinear

open Idealize.ShloMosaic Idealize.ShloMosaic.ValueIdx

/-- Row k of the upper half of the weight. -/
abbrev upper (k : Fin 128) : Fin 256 := ⟨k.val, Nat.lt_trans k.isLt (by decide)⟩
/-- Row k of the lower half of the weight. -/
abbrev lower (k : Fin 128) : Fin 256 := ⟨128 + k.val, by have := k.isLt; omega⟩

/-- The pairwise linear layer, entry by entry. -/
def result (x : (⟨4, ![8, 128, 3, 128]⟩ : Shape).Idx → EReal) (w : (⟨2, ![256, 128]⟩ : Shape).Idx → EReal) (b : (⟨2, ![1, 128]⟩ : Shape).Idx → EReal) :
    (⟨5, ![8, 128, 128, 3, 128]⟩ : Shape).Idx → EReal :=
  fun o => (∑ k : Fin 128, x (ix4 (n0 := 8) (n1 := 128) (n2 := 3) (n3 := 128) (o 0) (o 1) (o 3) k) * w (ix2 (n0 := 256) (n1 := 128) (upper k) (o 4))
      + ∑ k : Fin 128, x (ix4 (n0 := 8) (n1 := 128) (n2 := 3) (n3 := 128) (o 0) (o 2) (o 3) k) * w (ix2 (n0 := 256) (n1 := 128) (lower k) (o 4)))
    + b (ix2 (n0 := 1) (n1 := 128) (0 : Fin 1) (o 4))

end Cert.PairwiseLinear

end
-- ==== Proof.ArrayValue.lean ====
/-
  From blocks to the whole result array.

  Grid point t = (i, j) reads rows 32i … 32i+31 of the node features through window 0, rows 16j … 16j+15 of the same
  array through window 1, the two weight halves (the host's slices of the 256×128 weight: rows 0–127 and 128–255) and
  the bias, and writes back block (i, j) of the result. The block the body leaves is `blockFn` of those five blocks;
  reading each block through its window's index map turns it into the specification's entry at the result index the
  output window sends the block index to. The 4 × 8 output blocks tile the 128 × 128 pairs of nodes, so every entry of
  the result is written by some point, and the array ends holding the specification of the three arguments.
-/
import proofs.«179737_j9955734192542_2_alg».proof.Proof.IdealLaunch
import proofs.«179737_j9955734192542_2_alg».proof.Proof.BlockValue
import proofs.«179737_j9955734192542_2_alg».proof.Proof.Spec
import Idealize.ShloMosaic.Lib.StableHlo.Run

set_option maxRecDepth 16384

noncomputable section

namespace Cert.KernelIdeal.Hand

open Cert.KernelIdeal Cert.KernelIdeal.Gen Cert.PairwiseLinear
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## What the host wrote before the region -/

/-- Window 2's array is the upper half of the weight as launched. -/
theorem V_upper (c : Dev nD) : (V m c main_v0 : S128x128.Idx → EReal)
    = extractStridedSlice S128x128 ![0, 0] (m ((c : Thread nD τ).loc main_arg1)) slices_S256x128_S128x128_0_0 := by
  dsimp only [V, hostOps0]; after_results
/-- Window 3's array is the lower half. -/
theorem V_lower (c : Dev nD) : (V m c main_v1 : S128x128.Idx → EReal)
    = extractStridedSlice S128x128 ![128, 0] (m ((c : Thread nD τ).loc main_arg1)) slices_S256x128_S128x128_128_0 := by
  dsimp only [V, hostOps0]; after_results

/-! ## The index maps over the grid -/

/-- The i block follows the output block's i index, the j block its j index; the weights and the bias do not move;
    the output's block indices stay in range. -/
theorem idx_facts : ∀ t : Fin cfg0.N,
    win0_0.index t (0 : Fin 4) = 0 ∧ win0_0.index t (1 : Fin 4) = win0_5.index t (1 : Fin 5) ∧ win0_0.index t (2 : Fin 4) = 0 ∧ win0_0.index t (3 : Fin 4) = 0
    ∧ win0_1.index t (0 : Fin 4) = 0 ∧ win0_1.index t (1 : Fin 4) = win0_5.index t (2 : Fin 5) ∧ win0_1.index t (2 : Fin 4) = 0 ∧ win0_1.index t (3 : Fin 4) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 5) = 0 ∧ win0_5.index t (1 : Fin 5) ≤ 3 ∧ win0_5.index t (2 : Fin 5) ≤ 7
    ∧ win0_5.index t (3 : Fin 5) = 0 ∧ win0_5.index t (4 : Fin 5) = 0 :=
  (by decide +kernel : ∀ t : Fin grid0.N, _)

/-- Every pair (i block, j block) is some point's. -/
theorem idx_onto : ∀ (q1 : Fin 4) (q2 : Fin 8), ∃ t : Fin cfg0.N, win0_5.index t = ![0, q1.val, q2.val, 0, 0] :=
  (by decide +kernel : ∀ (q1 : Fin 4) (q2 : Fin 8), ∃ t : Fin grid0.N, win0_5.index t = ![0, q1.val, q2.val, 0, 0])

/-! ## What a point writes back -/

/-- Point `t` writes back block `t` of the specification of the three arguments. -/
theorem flushed_eq (c : Dev nD) (t : Fin cfg0.N) :
    (dats m 0 c).flushed 5 t = ((cfg0.win 5).blk t).view.read (Elt Ideal)
      (result (m ((c : Thread nD τ).loc main_arg0)) (m ((c : Thread nD τ).loc main_arg1)) (m ((c : Thread nD τ).loc main_arg2))) := by
  show (cfg0.win 5).cut (grid0.coords t) ((dats m 0 c).after 5 t) = _
  rw [after5, blockOut_eq]
  obtain ⟨a00, a01, a02, a03, a10, a11, a12, a13, a20, a21, a30, a31, a40, a41, a50, a51, a52, a53, a54⟩ := idx_facts t
  funext y
  have f1 : ∀ k : Fin 128, iblk m c 0 t (ix4 (n0 := 8) (n1 := 32) (n2 := 3) (n3 := 128) (y 0) (y 1) (y 3) k)
      = m ((c : Thread nD τ).loc main_arg0) (ix4 (n0 := 8) (n1 := 128) (n2 := 3) (n3 := 128) ((((cfg0.win 5).blk t).view.emb y) 0) ((((cfg0.win 5).blk t).view.emb y) 1) ((((cfg0.win 5).blk t).view.emb y) 3) k) := by
    intro k
    show V m c main_arg0 (((cfg0.win 0).blk t).view.emb (ix4 (n0 := 8) (n1 := 32) (n2 := 3) (n3 := 128) (y 0) (y 1) (y 3) k)) = _
    rw [V_main_arg0]
    refine congrArg (m ((c : Thread nD τ).loc main_arg0)) (funext fun d => Fin.ext ?_)
    match d with
    | ⟨0, _⟩ => show win0_0.index t (0 : Fin 4) * 8 + 1 * (y 0).val = win0_5.index t (0 : Fin 5) * 8 + 1 * (y 0).val; omega
    | ⟨1, _⟩ => show win0_0.index t (1 : Fin 4) * 32 + 1 * (y 1).val = win0_5.index t (1 : Fin 5) * 32 + 1 * (y 1).val; omega
    | ⟨2, _⟩ => show win0_0.index t (2 : Fin 4) * 3 + 1 * (y 3).val = win0_5.index t (3 : Fin 5) * 3 + 1 * (y 3).val; omega
    | ⟨3, _⟩ => show win0_0.index t (3 : Fin 4) * 128 + 1 * k.val = k.val; omega
  have f3 : ∀ k : Fin 128, iblk m c 1 t (ix4 (n0 := 8) (n1 := 16) (n2 := 3) (n3 := 128) (y 0) (y 2) (y 3) k)
      = m ((c : Thread nD τ).loc main_arg0) (ix4 (n0 := 8) (n1 := 128) (n2 := 3) (n3 := 128) ((((cfg0.win 5).blk t).view.emb y) 0) ((((cfg0.win 5).blk t).view.emb y) 2) ((((cfg0.win 5).blk t).view.emb y) 3) k) := by
    intro k
    show V m c main_arg0 (((cfg0.win 1).blk t).view.emb (ix4 (n0 := 8) (n1 := 16) (n2 := 3) (n3 := 128) (y 0) (y 2) (y 3) k)) = _
    rw [V_main_arg0]
    refine congrArg (m ((c : Thread nD τ).loc main_arg0)) (funext fun d => Fin.ext ?_)
    match d with
    | ⟨0, _⟩ => show win0_1.index t (0 : Fin 4) * 8 + 1 * (y 0).val = win0_5.index t (0 : Fin 5) * 8 + 1 * (y 0).val; omega
    | ⟨1, _⟩ => show win0_1.index t (1 : Fin 4) * 16 + 1 * (y 2).val = win0_5.index t (2 : Fin 5) * 16 + 1 * (y 2).val; omega
    | ⟨2, _⟩ => show win0_1.index t (2 : Fin 4) * 3 + 1 * (y 3).val = win0_5.index t (3 : Fin 5) * 3 + 1 * (y 3).val; omega
    | ⟨3, _⟩ => show win0_1.index t (3 : Fin 4) * 128 + 1 * k.val = k.val; omega
  have f2 : ∀ k : Fin 128, iblk m c 2 t (ix2 (n0 := 128) (n1 := 128) k (y 4))
      = m ((c : Thread nD τ).loc main_arg1) (ix2 (n0 := 256) (n1 := 128) (upper k) ((((cfg0.win 5).blk t).view.emb y) 4)) := by
    intro k
    show V m c main_v0 (((cfg0.win 2).blk t).view.emb (ix2 (n0 := 128) (n1 := 128) k (y 4))) = _
    rw [V_upper]
    refine extractStridedSlice_apply (s := S256x128) (t := S128x128) ![0, 0] _ slices_S256x128_S128x128_0_0 _ _ (fun d => ?_)
    match d with
    | ⟨0, _⟩ => show k.val = 0 + (win0_2.index t (0 : Fin 2) * 128 + 1 * k.val); omega
    | ⟨1, _⟩ => show win0_5.index t (4 : Fin 5) * 128 + 1 * (y 4).val = 0 + (win0_2.index t (1 : Fin 2) * 128 + 1 * (y 4).val); omega
  have f4 : ∀ k : Fin 128, iblk m c 3 t (ix2 (n0 := 128) (n1 := 128) k (y 4))
      = m ((c : Thread nD τ).loc main_arg1) (ix2 (n0 := 256) (n1 := 128) (lower k) ((((cfg0.win 5).blk t).view.emb y) 4)) := by
    intro k
    show V m c main_v1 (((cfg0.win 3).blk t).view.emb (ix2 (n0 := 128) (n1 := 128) k (y 4))) = _
    rw [V_lower]
    refine extractStridedSlice_apply (s := S256x128) (t := S128x128) ![128, 0] _ slices_S256x128_S128x128_128_0 _ _ (fun d => ?_)
    match d with
    | ⟨0, _⟩ => show 128 + k.val = 128 + (win0_3.index t (0 : Fin 2) * 128 + 1 * k.val); omega
    | ⟨1, _⟩ => show win0_5.index t (4 : Fin 5) * 128 + 1 * (y 4).val = 0 + (win0_3.index t (1 : Fin 2) * 128 + 1 * (y 4).val); omega
  have f5 : iblk m c 4 t (ix2 (n0 := 1) (n1 := 128) (0 : Fin 1) (y 4))
      = m ((c : Thread nD τ).loc main_arg2) (ix2 (n0 := 1) (n1 := 128) (0 : Fin 1) ((((cfg0.win 5).blk t).view.emb y) 4)) := by
    show V m c main_arg2 (((cfg0.win 4).blk t).view.emb (ix2 (n0 := 1) (n1 := 128) (0 : Fin 1) (y 4))) = _
    rw [V_main_arg2]
    refine congrArg (m ((c : Thread nD τ).loc main_arg2)) (funext fun d => Fin.ext ?_)
    match d with
    | ⟨0, _⟩ => show win0_4.index t (0 : Fin 2) * 1 + 1 * 0 = 0; omega
    | ⟨1, _⟩ => show win0_4.index t (1 : Fin 2) * 128 + 1 * (y 4).val = win0_5.index t (4 : Fin 5) * 128 + 1 * (y 4).val; omega
  show blockFn (iblk m c 0 t) (iblk m c 1 t) (iblk m c 2 t) (iblk m c 3 t) (iblk m c 4 t) y
    = result (m ((c : Thread nD τ).loc main_arg0)) (m ((c : Thread nD τ).loc main_arg1)) (m ((c : Thread nD τ).loc main_arg2)) (((cfg0.win 5).blk t).view.emb y)
  unfold blockFn result
  simp only [f1, f2, f3, f4, f5]

/-! ## The blocks tile the result -/

theorem mem_blk (t : Fin cfg0.N) (i : S8x128x128x3x128.Idx) :
    i ∈ ((cfg0.win 5).blk t).view.set ↔ ∀ a : Fin 5, win0_5.index t a * S8x32x16x3x128.size a ≤ (i a).val ∧ (i a).val < win0_5.index t a * S8x32x16x3x128.size a + S8x32x16x3x128.size a := by
  show i ∈ ((View.whole main_v2).slice (win0_5.rect t)).set ↔ _
  rw [View.set_slice_whole, Rect.mem_set_unit]
  exact Iff.rfl

/-- Every entry of the result lies in the block of the point with i block ⌊i / 32⌋ and j block ⌊j / 16⌋. -/
theorem covered (i : S8x128x128x3x128.Idx) : ∃ t : Fin cfg0.N, (cfg0.win 5).flush t = true ∧ i ∈ ((cfg0.win 5).blk t).view.set := by
  have h0 : (i 0).val < 8 := (i 0).isLt
  have h1 : (i 1).val < 128 := (i 1).isLt
  have h2 : (i 2).val < 128 := (i 2).isLt
  have h3 : (i 3).val < 3 := (i 3).isLt
  have h4 : (i 4).val < 128 := (i 4).isLt
  obtain ⟨t, ht⟩ := idx_onto ⟨(i 1).val / 32, by omega⟩ ⟨(i 2).val / 16, by omega⟩
  have q0 : win0_5.index t (0 : Fin 5) = 0 := congrFun ht 0
  have q1 : win0_5.index t (1 : Fin 5) = (i 1).val / 32 := congrFun ht 1
  have q2 : win0_5.index t (2 : Fin 5) = (i 2).val / 16 := congrFun ht 2
  have q3 : win0_5.index t (3 : Fin 5) = 0 := congrFun ht 3
  have q4 : win0_5.index t (4 : Fin 5) = 0 := congrFun ht 4
  refine ⟨t, flush0_5 t, ?_⟩
  rw [mem_blk]
  intro a
  match a with
  | ⟨0, _⟩ => show win0_5.index t (0 : Fin 5) * 8 ≤ (i 0).val ∧ (i 0).val < win0_5.index t (0 : Fin 5) * 8 + 8; omega
  | ⟨1, _⟩ => show win0_5.index t (1 : Fin 5) * 32 ≤ (i 1).val ∧ (i 1).val < win0_5.index t (1 : Fin 5) * 32 + 32; omega
  | ⟨2, _⟩ => show win0_5.index t (2 : Fin 5) * 16 ≤ (i 2).val ∧ (i 2).val < win0_5.index t (2 : Fin 5) * 16 + 16; omega
  | ⟨3, _⟩ => show win0_5.index t (3 : Fin 5) * 3 ≤ (i 3).val ∧ (i 3).val < win0_5.index t (3 : Fin 5) * 3 + 3; omega
  | ⟨4, _⟩ => show win0_5.index t (4 : Fin 5) * 128 ≤ (i 4).val ∧ (i 4).val < win0_5.index t (4 : Fin 5) * 128 + 128; omega

/-- The result array after the run is the specification of the three arguments as launched. -/
theorem final (c : Dev nD) : (dats m 0 c).arrAt 5 cfg0.N
    = result (m ((c : Thread nD τ).loc main_arg0)) (m ((c : Thread nD τ).loc main_arg1)) (m ((c : Thread nD τ).loc main_arg2)) :=
  (dats m 0 c).arrAt_eq_of_cover 5 _ (fun t _ => flushed_eq m c t) covered

/-! ## The kernel's run, read -/

/-- Every weakly fair execution of the idealized kernel terminates with the result array at the specification of the
    arguments and the arguments unchanged. -/
theorem run_value : θ_run defs (onTc (τ := τ) (main (F := Ideal))) ⟨m, fun _ => 0, ρ⟩ fun r => ∀ c : Dev nD,
      r.2.mem ((c.tc : Thread nD τ).loc main_v2)
        = result (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).1 5).trans (final m c),
     ((h c).1 0).trans (((dats m 0 c).arrAt_in 0 rfl _).trans ((A_eq m c 0).trans (V_main_arg0 m c))),
     ((h c).2 main_arg1 (Pipeline.mem_restRefs_of main_arg1 rfl (by decide))).trans (V_main_arg1 m c),
     ((h c).1 4).trans (((dats m 0 c).arrAt_in 4 rfl _).trans ((A_eq m c 4).trans (V_main_arg2 m c)))⟩) (run_main m ρ)

end Cert.KernelIdeal.Hand

end
-- ==== Proof.RefValue.lean ====
/-
  The reference computes the specification.

  The reference multiplies the node features by each weight half with one einsum per half, inserts a unit axis (at j
  for the first product, at i for the second), broadcasts both to the 8×128×128×3×128 result, adds them, and adds the
  bias row broadcast along every other axis. Read one operation at a time at a result index (a, i, j, c, l), the
  first product is read at (a, i, c, l), the second at (a, j, c, l) and the bias at (0, l): exactly the three terms of
  the specification, in the same grouping.
-/
import proofs.«179737_j9955734192542_2_alg».proof.Proof.Spec
import proofs.«179737_j9955734192542_2_alg».proof.Proof.Gen.ReferenceIdeal.Read

noncomputable section

namespace Cert.ReferenceIdeal.RefValue

open Cert.ReferenceIdeal Cert.ReferenceIdeal.Read Cert.PairwiseLinear
open Idealize.ShloMosaic Idealize.ShloMosaic.ValueIdx

/-- The reference's last stage, as a function of its three arguments, is the specification. -/
theorem stage_eq_result (x : (⟨S8x128x3x128, .f32⟩ : BufTy).Contents (Elt Ideal)) (w : (⟨S256x128, .f32⟩ : BufTy).Contents (Elt Ideal))
    (b : (⟨S1x128, .f32⟩ : BufTy).Contents (Elt Ideal)) :
    val_main_v12 (F := Ideal) x w b = result x w b := by
  funext o
  have el1 : ∀ k : Fin 128, lidx_main_v2 (idx_main_v4 (idx_main_v6 o)) k = ix4 (n0 := 8) (n1 := 128) (n2 := 3) (n3 := 128) (o 0) (o 1) (o 3) k := fun k =>
    funext fun d => Fin.ext (by match d with | ⟨0, _⟩ => rfl | ⟨1, _⟩ => rfl | ⟨2, _⟩ => rfl | ⟨3, _⟩ => rfl)
  have er1 : ∀ k : Fin 128, idx_main_v0 (ridx_main_v2 (idx_main_v4 (idx_main_v6 o)) k) = ix2 (n0 := 256) (n1 := 128) (upper k) (o 4) := fun k =>
    funext fun d => Fin.ext (by match d with | ⟨0, _⟩ => rfl | ⟨1, _⟩ => rfl)
  have el2 : ∀ k : Fin 128, lidx_main_v3 (idx_main_v5 (idx_main_v7 o)) k = ix4 (n0 := 8) (n1 := 128) (n2 := 3) (n3 := 128) (o 0) (o 2) (o 3) k := fun k =>
    funext fun d => Fin.ext (by match d with | ⟨0, _⟩ => rfl | ⟨1, _⟩ => rfl | ⟨2, _⟩ => rfl | ⟨3, _⟩ => rfl)
  have er2 : ∀ k : Fin 128, idx_main_v1 (ridx_main_v3 (idx_main_v5 (idx_main_v7 o)) k) = ix2 (n0 := 256) (n1 := 128) (lower k) (o 4) := fun k =>
    funext fun d => Fin.ext (by match d with | ⟨0, _⟩ => rfl | ⟨1, _⟩ => rfl)
  have eb : idx_main_v9 (idx_main_v10 (idx_main_v11 o)) = ix2 (n0 := 1) (n1 := 128) (0 : Fin 1) (o 4) :=
    funext fun d => Fin.ext (by
      match d with
      | ⟨0, _⟩ => rfl
      | ⟨1, _⟩ => show ((o 4).val) % 128 = (o 4).val; exact Nat.mod_eq_of_lt (o 4).isLt)
  rw [val_main_v12_apply, val_main_v8_apply, val_main_v6_apply, val_main_v4_apply, val_main_v2_apply,
    val_main_v7_apply, val_main_v5_apply, val_main_v3_apply, val_main_v11_apply, val_main_v10_apply, val_main_v9_apply]
  simp only [val_main_v0_apply, val_main_v1_apply, el1, er1, el2, er2, eb]
  rfl

end Cert.ReferenceIdeal.RefValue

end
-- ==== Proof.lean ====
/-
  The kernel computes, for every pair of nodes (i, j) of every batch and channel, a linear layer applied to the
  concatenation of the two nodes' features:

      out[a, i, j, c, l] = Σ_k x[a, i, c, k] · W[k, l]  +  Σ_k x[a, j, c, k] · W[128 + k, l]  +  b[0, l].

  The Pallas kernel tiles the 128 × 128 pairs into 4 × 8 blocks of 32 × 16, reads the node features twice (once per
  node of the pair) and forms the two products per channel on the matrix unit; the reference forms the two products
  with one einsum each and broadcasts. Over the extended reals both are the function above (Proof/Spec.lean): a change
  of float format is the identity, a matrix product into a zero accumulator and an einsum are the same finite sum, and
  the two sides add their three terms in the same grouping — so nothing about the inputs' finiteness is used.

  Frames. The kernel's frame is proved once, for any float instance (Proof/IdealBody, IdealRun, IdealLaunch and their
  word-level copies Proof/BitsBody, BitsRun, BitsLaunch): one grid point as a triple, the pipeline's proof data with
  the node features' share split between the two windows that read it, and the pipeline library's launch theorem for
  windows sharing an array. The reference's frame is its run with the result forgotten.

  Value. Proof/ChannelValue reads one channel's payload at an index; Proof/BlockValue the whole output block;
  Proof/ArrayValue carries blocks to the whole array through the windows' index maps; Proof/RefValue reads the
  reference's last stage one operation at a time.
-/
import proofs.«179737_j9955734192542_2_alg».proof.Defs
import proofs.«179737_j9955734192542_2_alg».proof.Proof.Gen.Kernel
import proofs.«179737_j9955734192542_2_alg».proof.Proof.Gen.KernelIdeal
import proofs.«179737_j9955734192542_2_alg».proof.Proof.Gen.ReferenceIdeal
import proofs.«179737_j9955734192542_2_alg».proof.Proof.Gen.Pre_finite_inputs
import proofs.«179737_j9955734192542_2_alg».proof.Proof.Gen.ReferenceIdeal.Run
import proofs.«179737_j9955734192542_2_alg».proof.Proof.Gen.ReferenceIdeal.Read
import proofs.«179737_j9955734192542_2_alg».proof.Proof.BitsLaunch
import proofs.«179737_j9955734192542_2_alg».proof.Proof.ArrayValue
import proofs.«179737_j9955734192542_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Hand.frame m ρ

/-- So does the idealized kernel. -/
theorem frame_kernelIdeal : Cert.frame_KernelIdeal := fun m ρ _ => Cert.KernelIdeal.Hand.frame m ρ

/-- The reference is host operations only: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end with the result array at the specification of the arguments, which agree. -/
theorem algebraic : Cert.algebraic_KernelIdeal_ReferenceIdeal := by
  intro m ρ m' ρ' _ hagree
  refine ⟨fun c => Cert.PairwiseLinear.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.stage_eq_result,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
